-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x300000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S5000x256 : Shape := ⟨2, ![5000, 256]⟩
abbrev S350000x256 : Shape := ⟨2, ![350000, 256]⟩
abbrev S1x256 : Shape := ⟨2, ![1, 256]⟩
abbrev S50000x128 : Shape := ⟨2, ![50000, 128]⟩
abbrev S5000x128 : Shape := ⟨2, ![5000, 128]⟩
abbrev S350000x128 : Shape := ⟨2, ![350000, 128]⟩
abbrev S1x128 : Shape := ⟨2, ![1, 128]⟩
abbrev S1 : Shape := ⟨1, ![1]⟩
abbrev S1x1 : Shape := ⟨2, ![1, 1]⟩

abbrev nBuf : Space → Nat
  | .hbm => 160
  | .vmem => 20
  | .smem => 0
  | _ => 0

abbrev hbmTy0_0 (i : Nat) : BufTy := match i % 128 with
  | 0 => ⟨S50000x256, .f32⟩
  | 1 => ⟨S2x300000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S50000, .i32⟩
  | 11 => ⟨S1x300000, .i32⟩
  | 12 => ⟨S300000, .i32⟩
  | 13 => ⟨S350000, .i32⟩
  | 14 => ⟨S1x300000, .i32⟩
  | 15 => ⟨S300000, .i32⟩
  | 16 => ⟨S350000, .i32⟩
  | 17 => ⟨S_, .f32⟩
  | 18 => ⟨S350000, .f32⟩
  | 19 => ⟨S_, .f32⟩
  | 20 => ⟨S50000, .f32⟩
  | 21 => ⟨S350000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S350000, .i32⟩
  | 36 => ⟨S350000, .i1⟩
  | 37 => ⟨S_, .i32⟩
  | 38 => ⟨S350000, .i32⟩
  | 39 => ⟨S350000, .i32⟩
  | 40 => ⟨S350000, .i32⟩
  | 41 => ⟨S350000x1, .i32⟩
  | 42 => ⟨S350000, .f32⟩
  | 43 => ⟨S_, .i32⟩
  | 44 => ⟨S350000, .i32⟩
  | 45 => ⟨S350000, .i1⟩
  | 46 => ⟨S_, .i32⟩
  | 47 => ⟨S350000, .i32⟩
  | 48 => ⟨S350000, .i32⟩
  | 49 => ⟨S350000, .i32⟩
  | 50 => ⟨S350000x1, .i32⟩
  | 51 => ⟨S350000, .f32⟩
  | 52 => ⟨S350000, .f32⟩
  | 53 => ⟨S50000x256, .f32⟩
  | 54 => ⟨S_, .i32⟩
  | 55 => ⟨S350000, .i32⟩
  | 56 => ⟨S350000, .i1⟩
  | 57 => ⟨S_, .i32⟩
  | 58 => ⟨S350000, .i32⟩
  | 59 => ⟨S350000, .i32⟩
  | 60 => ⟨S350000, .i32⟩
  | 61 => ⟨S350000x1, .i32⟩
  | 62 => ⟨S350000x256, .f32⟩
  | 63 => ⟨S350000x1, .f32⟩
  | 64 => ⟨S350000x256, .f32⟩
  | 65 => ⟨S350000x256, .f32⟩
  | 66 => ⟨S_, .f32⟩
  | 67 => ⟨S50000x256, .f32⟩
  | 68 => ⟨S350000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S_, .i32⟩
  | 78 => ⟨S350000, .i32⟩
  | 79 => ⟨S350000, .i1⟩
  | 80 => ⟨S_, .i32⟩
  | 81 => ⟨S350000, .i32⟩
  | 82 => ⟨S350000, .i32⟩
  | 83 => ⟨S350000, .i32⟩
  | 84 => ⟨S350000x1, .i32⟩
  | 85 => ⟨S350000x256, .f32⟩
  | 86 => ⟨S350000x1, .f32⟩
  | 87 => ⟨S350000x256, .f32⟩
  | 88 => ⟨S350000x256, .f32⟩
  | 89 => ⟨S_, .f32⟩
  | 90 => ⟨S50000x256, .f32⟩
  | 91 => ⟨S350000x1, .i32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S50000x256, .f32⟩
  | 100 => ⟨S_, .i32⟩
  | 101 => ⟨S350000, .i32⟩
  | 102 => ⟨S350000, .i1⟩
  | 103 => ⟨S_, .i32⟩
  | 104 => ⟨S350000, .i32⟩
  | 105 => ⟨S350000, .i32⟩
  | 106 => ⟨S350000, .i32⟩
  | 107 => ⟨S350000x1, .i32⟩
  | 108 => ⟨S350000x256, .f32⟩
  | 109 => ⟨S350000x1, .f32⟩
  | 110 => ⟨S350000x256, .f32⟩
  | 111 => ⟨S350000x256, .f32⟩
  | 112 => ⟨S_, .f32⟩
  | 113 => ⟨S50000x256, .f32⟩
  | 114 => ⟨S350000x1, .i32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x128, .f32⟩
  | 123 => ⟨S_, .i32⟩
  | 124 => ⟨S350000, .i32⟩
  | 125 => ⟨S350000, .i1⟩
  | 126 => ⟨S_, .i32⟩
  | 127 => ⟨S350000, .i32⟩
  | _ => ⟨S50000x256, .f32⟩

abbrev hbmTy0_1 (i : Nat) : BufTy := match i % 128 with
  | 0 => ⟨S350000, .i32⟩
  | 1 => ⟨S350000, .i32⟩
  | 2 => ⟨S350000x1, .i32⟩
  | 3 => ⟨S350000x128, .f32⟩
  | 4 => ⟨S350000x1, .f32⟩
  | 5 => ⟨S350000x128, .f32⟩
  | 6 => ⟨S350000x128, .f32⟩
  | 7 => ⟨S_, .f32⟩
  | 8 => ⟨S50000x128, .f32⟩
  | 9 => ⟨S350000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S1x128, .f32⟩
  | 17 => ⟨S_, .f32⟩
  | 18 => ⟨S1, .f32⟩
  | 19 => ⟨S_, .f32⟩
  | 20 => ⟨S1, .f32⟩
  | 21 => ⟨S1, .f32⟩
  | 22 => ⟨S1x1, .f32⟩
  | 23 => ⟨S1x128, .f32⟩
  | 24 => ⟨S1x128, .f32⟩
  | 25 => ⟨S1x128, .f32⟩
  | 26 => ⟨S_, .f32⟩
  | 27 => ⟨S1, .f32⟩
  | 28 => ⟨S1x1, .f32⟩
  | 29 => ⟨S1x1, .f32⟩
  | 30 => ⟨S1x128, .f32⟩
  | 31 => ⟨S1x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_19 : Ref sig .tc := ⟨.hbm, 142, rfl⟩
abbrev main_v103 : Ref sig .tc := ⟨.hbm, 143, rfl⟩
abbrev main_v104 : Ref sig .tc := ⟨.hbm, 144, rfl⟩
abbrev main_call4_cst : Ref sig .tc := ⟨.hbm, 145, rfl⟩
abbrev main_call4_v0 : Ref sig .tc := ⟨.hbm, 146, rfl⟩
abbrev main_call4_cst_0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_cst_1 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_v105 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S350000x1_S350000x128_0_1 : S350000x1.BroadcastsInDim S350000x128 (![0, 1] : Fin 2 → Fin S350000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  reducesTo_S1x128_S1_d1 : S1x128.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x128_0_1 : S1x1.BroadcastsInDim S1x128 (![0, 1] : Fin 2 → Fin S1x128.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S5000x256_S256x256_S5000x256_1_0_0_1_n_n_wf : DotDims.WF S5000x256 S256x256 S5000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  dot_S5000x256_S256x128_S5000x128_1_0_0_1_n_n_wf : DotDims.WF S5000x256 S256x128 S5000x128 [1] [0] [0] [1] [] []
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S350000x256 : Shape := ⟨2, ![350000, 256]⟩
abbrev S1x256 : Shape := ⟨2, ![1, 256]⟩
abbrev S50000x128 : Shape := ⟨2, ![50000, 128]⟩
abbrev S350000x128 : Shape := ⟨2, ![350000, 128]⟩
abbrev S1x128 : Shape := ⟨2, ![1, 128]⟩
abbrev S1 : Shape := ⟨1, ![1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x256, .f32⟩
  | 1 => ⟨S2x300000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S50000, .i32⟩
  | 11 => ⟨S1x300000, .i32⟩
  | 12 => ⟨S300000, .i32⟩
  | 13 => ⟨S350000, .i32⟩
  | 14 => ⟨S1x300000, .i32⟩
  | 15 => ⟨S300000, .i32⟩
  | 16 => ⟨S350000, .i32⟩
  | 17 => ⟨S_, .f32⟩
  | 18 => ⟨S350000, .f32⟩
  | 19 => ⟨S_, .f32⟩
  | 20 => ⟨S50000, .f32⟩
  | 21 => ⟨S350000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S350000, .i32⟩
  | 36 => ⟨S350000, .i1⟩
  | 37 => ⟨S_, .i32⟩
  | 38 => ⟨S350000, .i32⟩
  | 39 => ⟨S350000, .i32⟩
  | 40 => ⟨S350000, .i32⟩
  | 41 => ⟨S350000x1, .i32⟩
  | 42 => ⟨S350000, .f32⟩
  | 43 => ⟨S_, .i32⟩
  | 44 => ⟨S350000, .i32⟩
  | 45 => ⟨S350000, .i1⟩
  | 46 => ⟨S_, .i32⟩
  | 47 => ⟨S350000, .i32⟩
  | 48 => ⟨S350000, .i32⟩
  | 49 => ⟨S350000, .i32⟩
  | 50 => ⟨S350000x1, .i32⟩
  | 51 => ⟨S350000, .f32⟩
  | 52 => ⟨S350000, .f32⟩
  | 53 => ⟨S50000x256, .f32⟩
  | 54 => ⟨S_, .i32⟩
  | 55 => ⟨S350000, .i32⟩
  | 56 => ⟨S350000, .i1⟩
  | 57 => ⟨S_, .i32⟩
  | 58 => ⟨S350000, .i32⟩
  | 59 => ⟨S350000, .i32⟩
  | 60 => ⟨S350000, .i32⟩
  | 61 => ⟨S350000x1, .i32⟩
  | 62 => ⟨S350000x256, .f32⟩
  | 63 => ⟨S350000x1, .f32⟩
  | 64 => ⟨S350000x256, .f32⟩
  | 65 => ⟨S350000x256, .f32⟩
  | 66 => ⟨S_, .f32⟩
  | 67 => ⟨S50000x256, .f32⟩
  | 68 => ⟨S350000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S_, .i32⟩
  | 78 => ⟨S350000, .i32⟩
  | 79 => ⟨S350000, .i1⟩
  | 80 => ⟨S_, .i32⟩
  | 81 => ⟨S350000, .i32⟩
  | 82 => ⟨S350000, .i32⟩
  | 83 => ⟨S350000, .i32⟩
  | 84 => ⟨S350000x1, .i32⟩
  | 85 => ⟨S350000x256, .f32⟩
  | 86 => ⟨S350000x1, .f32⟩
  | 87 => ⟨S350000x256, .f32⟩
  | 88 => ⟨S350000x256, .f32⟩
  | 89 => ⟨S_, .f32⟩
  | 90 => ⟨S50000x256, .f32⟩
  | 91 => ⟨S350000x1, .i32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S50000x256, .f32⟩
  | 100 => ⟨S_, .i32⟩
  | 101 => ⟨S350000, .i32⟩
  | 102 => ⟨S350000, .i1⟩
  | 103 => ⟨S_, .i32⟩
  | 104 => ⟨S350000, .i32⟩
  | 105 => ⟨S350000, .i32⟩
  | 106 => ⟨S350000, .i32⟩
  | 107 => ⟨S350000x1, .i32⟩
  | 108 => ⟨S350000x256, .f32⟩
  | 109 => ⟨S350000x1, .f32⟩
  | 110 => ⟨S350000x256, .f32⟩
  | 111 => ⟨S350000x256, .f32⟩
  | 112 => ⟨S_, .f32⟩
  | 113 => ⟨S50000x256, .f32⟩
  | 114 => ⟨S350000x1, .i32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x128, .f32⟩
  | 123 => ⟨S_, .i32⟩
  | 124 => ⟨S350000, .i32⟩
  | 125 => ⟨S350000, .i1⟩
  | 126 => ⟨S_, .i32⟩
  | 127 => ⟨S350000, .i32⟩
  | _ => ⟨S50000x256, .f32⟩

abbrev hbmTy0_1 (i : Nat) : BufTy := match i % 128 with
  | 0 => ⟨S350000, .i32⟩
  | 1 => ⟨S350000, .i32⟩
  | 2 => ⟨S350000x1, .i32⟩
  | 3 => ⟨S350000x128, .f32⟩
  | 4 => ⟨S350000x1, .f32⟩
  | 5 => ⟨S350000x128, .f32⟩
  | 6 => ⟨S350000x128, .f32⟩
  | 7 => ⟨S_, .f32⟩
  | 8 => ⟨S50000x128, .f32⟩
  | 9 => ⟨S350000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S1x128, .f32⟩
  | 17 => ⟨S_, .f32⟩
  | 18 => ⟨S1, .f32⟩
  | 19 => ⟨S_, .f32⟩
  | 20 => ⟨S1, .f32⟩
  | 21 => ⟨S1, .f32⟩
  | 22 => ⟨S1x1, .f32⟩
  | 23 => ⟨S1x128, .f32⟩
  | 24 => ⟨S1x128, .f32⟩
  | 25 => ⟨S1x128, .f32⟩
  | 26 => ⟨S_, .f32⟩
  | 27 => ⟨S1, .f32⟩
  | 28 => ⟨S1x1, .f32⟩
  | 29 => ⟨S1x1, .f32⟩
  | 30 => ⟨S1x128, .f32⟩
  | 31 => ⟨S1x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_19 : Ref sig .tc := ⟨.hbm, 142, rfl⟩
abbrev main_v103 : Ref sig .tc := ⟨.hbm, 143, rfl⟩
abbrev main_v104 : Ref sig .tc := ⟨.hbm, 144, rfl⟩
abbrev main_call4_cst : Ref sig .tc := ⟨.hbm, 145, rfl⟩
abbrev main_call4_v0 : Ref sig .tc := ⟨.hbm, 146, rfl⟩
abbrev main_call4_cst_0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_cst_1 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_v105 : Ref sig .tc := ⟨.hbm, 159, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S350000x1_S350000x128_0_1 : S350000x1.BroadcastsInDim S350000x128 (![0, 1] : Fin 2 → Fin S350000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  reducesTo_S1x128_S1_d1 : S1x128.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x128_0_1 : S1x1.BroadcastsInDim S1x128 (![0, 1] : Fin 2 → Fin S1x128.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S50000x256_S256x256_S50000x256_1_0_0_1_n_n_wf : DotDims.WF S50000x256 S256x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  dot_S50000x256_S256x128_S50000x128_1_0_0_1_n_n_wf : DotDims.WF S50000x256 S256x128 S50000x128 [1] [0] [0] [1] [] []
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf

class Facts : Prop extends Facts₀ where

variable [Facts]
-- ==== Proof.FinalState.lean ====
/-
  The whole program's run with its final memory NAMED. The program is fifteen segments: stretches of host operations
  and the four pallas_calls. Each segment takes the core's buffer contents at its entry to the contents at its exit
  (a host stretch applies its operations in order; a pallas_call replaces its output array by what its grid leaves and
  keeps every other buffer), so every weakly fair execution terminates, faults nowhere, and ends with every buffer that
  outlives the calls at the last of these contents.
-/
import proofs.«154524_j43173011259684_1_alg».proof.Proof.Gen.KernelIdeal.Frame

set_option maxRecDepth 16384

noncomputable section

namespace Cert.KernelIdeal.FinalState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that is not scoped to a call ends at the
    contents the last segment leaves. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h => h)

end Cert.KernelIdeal.FinalState

end
-- ==== Proof.Carried.lean ====
/-
  Buffers that are computed once and read by every layer: the two edge lists, the edge weights, and the arguments.
  A stretch of host operations changes only the buffers its operations write, and a pallas_call only its output array.
  So a buffer that none of them writes holds, at every later boundary between segments, what it held when the first
  pallas_call was entered; and an argument holds there what the program was launched with.
-/
import proofs.«154524_j43173011259684_1_alg».proof.Proof.Gen.KernelIdeal.Frame

set_option maxRecDepth 16384

noncomputable section

namespace Cert.KernelIdeal.Carried

open Cert.KernelIdeal Cert.KernelIdeal.Gen Idealize.ShloMosaic Idealize.ShloMosaic.TcCoe Idealize.SL.Sem
open Idealize.ShloMosaic.Pipeline (Dat)

variable {F : FTy → Type} [FloatOps F]

/-! ## What each stretch writes -/

/-- The buffers `hostOps0` writes, in order. -/
abbrev wr_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes_hostOps0 : (hostOps0 : List (HloOp τ sig (Elt F))).Forall fun op => op.writes ⊆ (wr_hostOps0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps0_1` writes, in order. -/
abbrev wr_hostOps0_1 : List (Ref sig .tc) := [main_call0_v0, main_call0_v1, main_v16]
theorem writes_hostOps0_1 : (hostOps0_1 : List (HloOp τ sig (Elt F))).Forall fun op => op.writes ⊆ (wr_hostOps0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps0_2` writes, in order. -/
abbrev wr_hostOps0_2 : List (Ref sig .tc) := [main_c, main_v17, main_v18, main_c_4, main_v19, main_v20, main_v21, main_v22, main_v23, main_c_5, main_v24, main_v25, main_c_6, main_v26, main_v27, main_v28, main_v29, main_v30, main_v31]
theorem writes_hostOps0_2 : (hostOps0_2 : List (HloOp τ sig (Elt F))).Forall fun op => op.writes ⊆ (wr_hostOps0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps1` writes, in order. -/
abbrev wr_hostOps1 : List (Ref sig .tc) := [main_c_7, main_v33, main_v34, main_c_8, main_v35, main_v36, main_v37, main_v38, main_v39, main_v40, main_v41, main_v42, main_cst_9, main_v43, main_v44, main_v45, main_v46, main_v47, main_v48]
theorem writes_hostOps1 : (hostOps1 : List (HloOp τ sig (Elt F))).Forall fun op => op.writes ⊆ (wr_hostOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps1_1` writes, in order. -/
abbrev wr_hostOps1_1 : List (Ref sig .tc) := [main_call1_cst, main_call1_v0, main_v49]
theorem writes_hostOps1_1 : (hostOps1_1 : List (HloOp τ sig (Elt F))).Forall fun op => op.writes ⊆ (wr_hostOps1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps2` writes, in order. -/
abbrev wr_hostOps2 : List (Ref sig .tc) := [main_c_10, main_v51, main_v52, main_c_11, main_v53, main_v54, main_v55, main_v56, main_v57, main_v58, main_v59, main_v60, main_cst_12, main_v61, main_v62, main_v63, main_v64, main_v65, main_v66]
theorem writes_hostOps2 : (hostOps2 : List (HloOp τ sig (Elt F))).Forall fun op => op.writes ⊆ (wr_hostOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps2_1` writes, in order. -/
abbrev wr_hostOps2_1 : List (Ref sig .tc) := [main_call2_cst, main_call2_v0, main_v67]
theorem writes_hostOps2_1 : (hostOps2_1 : List (HloOp τ sig (Elt F))).Forall fun op => op.writes ⊆ (wr_hostOps2_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps3` writes, in order. -/
abbrev wr_hostOps3 : List (Ref sig .tc) := [main_c_13, main_v69, main_v70, main_c_14, main_v71, main_v72, main_v73, main_v74, main_v75, main_v76, main_v77, main_v78, main_cst_15, main_v79, main_v80, main_v81, main_v82, main_v83, main_v84]
theorem writes_hostOps3 : (hostOps3 : List (HloOp τ sig (Elt F))).Forall fun op => op.writes ⊆ (wr_hostOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps3_1` writes, in order. -/
abbrev wr_hostOps3_1 : List (Ref sig .tc) := [main_call3_cst, main_call3_v0, main_v85]
theorem writes_hostOps3_1 : (hostOps3_1 : List (HloOp τ sig (Elt F))).Forall fun op => op.writes ⊆ (wr_hostOps3_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps4` writes, in order. -/
abbrev wr_hostOps4 : List (Ref sig .tc) := [main_c_16, main_v87, main_v88, main_c_17, main_v89, main_v90, main_v91, main_v92, main_v93, main_v94, main_v95, main_v96, main_cst_18, main_v97, main_v98, main_v99, main_v100, main_v101, main_v102, main_cst_19, main_v103, main_v104]
theorem writes_hostOps4 : (hostOps4 : List (HloOp τ sig (Elt F))).Forall fun op => op.writes ⊆ (wr_hostOps4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps4_1` writes, in order. -/
abbrev wr_hostOps4_1 : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v105]
theorem writes_hostOps4_1 : (hostOps4_1 : List (HloOp τ sig (Elt F))).Forall fun op => op.writes ⊆ (wr_hostOps4_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-! ## Untouched up to a boundary -/

/-- Not written before the first call is entered. -/
abbrev Free3 (r : Ref sig .tc) : Prop := r ∉ wr_hostOps0 ∧ r ∉ wr_hostOps0_1 ∧ r ∉ wr_hostOps0_2
/-- Not an array of the first call. -/
abbrev Free4 (r : Ref sig .tc) : Prop := ∀ w, Pipeline.arrRef spec0 w ≠ r
abbrev Free6 (r : Ref sig .tc) : Prop := Free4 r ∧ r ∉ wr_hostOps1 ∧ r ∉ wr_hostOps1_1
abbrev Free7 (r : Ref sig .tc) : Prop := Free6 r ∧ ∀ w, Pipeline.arrRef spec1 w ≠ r
abbrev Free9 (r : Ref sig .tc) : Prop := Free7 r ∧ r ∉ wr_hostOps2 ∧ r ∉ wr_hostOps2_1
abbrev Free10 (r : Ref sig .tc) : Prop := Free9 r ∧ ∀ w, Pipeline.arrRef spec2 w ≠ r
abbrev Free12 (r : Ref sig .tc) : Prop := Free10 r ∧ r ∉ wr_hostOps3 ∧ r ∉ wr_hostOps3_1
abbrev Free13 (r : Ref sig .tc) : Prop := Free12 r ∧ ∀ w, Pipeline.arrRef spec3 w ≠ r

variable (m : (ℓ : Loc nD τ sig) → Buf (Elt F) ℓ) (ρ : Dev nD → PrngReg)

/-- A buffer the first stretches do not write is, at the first call's entry, as launched. -/
theorem at3 (c : Dev nD) (r : Ref sig .tc) (h : Free3 r) :
    W3 m ρ c (Proc.devRef .tc r) = m ((c : Thread nD τ).loc r) :=
  (StableHlo.after_of_writes_sub hostOps0_2 _ writes_hostOps0_2 h.2.2).trans
    ((StableHlo.after_of_writes_sub hostOps0_1 _ writes_hostOps0_1 h.2.1).trans
      ((StableHlo.after_of_writes_sub hostOps0 _ writes_hostOps0 h.1).trans rfl))

theorem at4 (c : Dev nD) (r : Ref sig .tc) (h : Free4 r) :
    W4 m ρ c (Proc.devRef .tc r) = W3 m ρ c (Proc.devRef .tc r) := W4_of_ne m ρ c r h

theorem at6 (c : Dev nD) (r : Ref sig .tc) (h : Free6 r) :
    W6 m ρ c (Proc.devRef .tc r) = W3 m ρ c (Proc.devRef .tc r) :=
  (StableHlo.after_of_writes_sub hostOps1_1 _ writes_hostOps1_1 h.2.2).trans
    ((StableHlo.after_of_writes_sub hostOps1 _ writes_hostOps1 h.2.1).trans (at4 m ρ c r h.1))

theorem at7 (c : Dev nD) (r : Ref sig .tc) (h : Free7 r) :
    W7 m ρ c (Proc.devRef .tc r) = W3 m ρ c (Proc.devRef .tc r) :=
  (W7_of_ne m ρ c r h.2).trans (at6 m ρ c r h.1)

theorem at9 (c : Dev nD) (r : Ref sig .tc) (h : Free9 r) :
    W9 m ρ c (Proc.devRef .tc r) = W3 m ρ c (Proc.devRef .tc r) :=
  (StableHlo.after_of_writes_sub hostOps2_1 _ writes_hostOps2_1 h.2.2).trans
    ((StableHlo.after_of_writes_sub hostOps2 _ writes_hostOps2 h.2.1).trans (at7 m ρ c r h.1))

theorem at10 (c : Dev nD) (r : Ref sig .tc) (h : Free10 r) :
    W10 m ρ c (Proc.devRef .tc r) = W3 m ρ c (Proc.devRef .tc r) :=
  (W10_of_ne m ρ c r h.2).trans (at9 m ρ c r h.1)

theorem at12 (c : Dev nD) (r : Ref sig .tc) (h : Free12 r) :
    W12 m ρ c (Proc.devRef .tc r) = W3 m ρ c (Proc.devRef .tc r) :=
  (StableHlo.after_of_writes_sub hostOps3_1 _ writes_hostOps3_1 h.2.2).trans
    ((StableHlo.after_of_writes_sub hostOps3 _ writes_hostOps3 h.2.1).trans (at10 m ρ c r h.1))

theorem at13 (c : Dev nD) (r : Ref sig .tc) (h : Free13 r) :
    W13 m ρ c (Proc.devRef .tc r) = W3 m ρ c (Proc.devRef .tc r) :=
  (W13_of_ne m ρ c r h.2).trans (at12 m ρ c r h.1)

end Cert.KernelIdeal.Carried

end
-- ==== Proof.DenseSpec.lean ====
/-
  The one non-pointwise step that the two programs spell differently: a layer's dense product  H · W.
  As a function of the whole arrays, entry (r, q) of the product of H : [50000, 256] with W : [256, n] is
      ∑ k, H (r, k) · W (k, q)
  over the extended reals, where the sum of 256 terms is a sum in a commutative monoid: no order or grouping of
  the additions matters. The kernel computes it ten rows-blocks of 5000 at a time, the reference all at once.
-/
import Idealize.ShloMosaic.PureOps.Ideal
import Idealize.ShloMosaic.Lib.ValueIdx

noncomputable section

namespace Cert.DenseSpec

open Idealize.ShloMosaic Idealize.ShloMosaic.ValueIdx

/-- H · W for a square weight matrix: the three hidden layers. -/
def dense256 (h : (⟨2, ![50000, 256]⟩ : Shape).Idx → EReal) (w : (⟨2, ![256, 256]⟩ : Shape).Idx → EReal) :
    (⟨2, ![50000, 256]⟩ : Shape).Idx → EReal :=
  fun i => ∑ k : Fin 256, h (ix2 (i 0) k) * w (ix2 k (i 1))

/-- H · W into the 128 classes: the last layer. -/
def dense128 (h : (⟨2, ![50000, 256]⟩ : Shape).Idx → EReal) (w : (⟨2, ![256, 128]⟩ : Shape).Idx → EReal) :
    (⟨2, ![50000, 128]⟩ : Shape).Idx → EReal :=
  fun i => ∑ k : Fin 256, h (ix2 (i 0) k) * w (ix2 k (i 1))

end Cert.DenseSpec

end
-- ==== Proof.Layers.lean ====
/-
  The graph convolution, written once as functions of whole arrays, in the spelling both programs use.
  From the edge index e : [2, 300000]:
    src e, dst e   the sources and targets, each followed by 0 … 49999 (a self loop per node);
    deg            the number of edges into each node (ones scattered and added at dst);
    dis            deg^(-1/2) where deg > 0 (of max(deg, 1)), else 0;
    norm e         dis[src] · dis[dst], one weight per edge (an index below zero wraps by 50000, as jnp indexing does).
  A layer maps the product P = H · W to  scatter-add at dst of (P[src] · norm)  + b; the three hidden layers then take
  max(·, 0), the last is summed over the rows and followed by its log-softmax. Both programs are compositions of these
  functions; they differ only in how P is computed, and the host's P is the dense product of DenseSpec.
-/
import proofs.«154524_j43173011259684_1_alg».proof.Proof.Gen.ReferenceIdeal
import proofs.«154524_j43173011259684_1_alg».proof.Proof.DenseSpec
import Idealize.ShloMosaic.Lib.ValueIdx
import Idealize.ShloMosaic.PureOps.Ideal.Laws

noncomputable section

namespace Cert.Layers

open Cert.ReferenceIdeal Cert.ReferenceIdeal.Facts₀ Cert.ReferenceIdeal.Facts Idealize.ShloMosaic Idealize.ShloMosaic.ValueIdx Cert.DenseSpec

variable {F : FTy → Type} [FloatOps F]

/-! ## The edges -/

/-- Row 0 of the edge index, then the self loops. -/
def srcOf (e : (⟨S2x300000, .i32⟩ : BufTy).Contents (Elt F)) : (⟨S350000, .i32⟩ : BufTy).Contents (Elt F) :=
  concatenate S350000 0
    [⟨S300000, shapeCast _ (extractStridedSlice S1x300000 ![0, 0] e slices_S2x300000_S1x300000_0_0) shapeCasts_S1x300000_S300000⟩,
     ⟨S50000, iotaInDim S50000 32 0⟩] concatenates_S300000_S50000_S350000_d0

/-- Row 1 of the edge index, then the self loops. -/
def dstOf (e : (⟨S2x300000, .i32⟩ : BufTy).Contents (Elt F)) : (⟨S350000, .i32⟩ : BufTy).Contents (Elt F) :=
  concatenate S350000 0
    [⟨S300000, shapeCast _ (extractStridedSlice S1x300000 ![1, 0] e slices_S2x300000_S1x300000_1_0) shapeCasts_S1x300000_S300000⟩,
     ⟨S50000, iotaInDim S50000 32 0⟩] concatenates_S300000_S50000_S350000_d0

/-- The in-degree of every node, self loop included. -/
def degOf (e : (⟨S2x300000, .i32⟩ : BufTy).Contents (Elt F)) : (⟨S50000, .f32⟩ : BufTy).Contents (Elt F) :=
  Host.scatterAdd scatter_S50000_S350000x1_S350000_n_0_0_1
    (broadcastInDim S50000 ![] bcast_S_S50000 (constant (F := F) S_ .f32 0x00000000#32))
    (broadcastInDim S350000x1 ![0] bcast_S350000_S350000x1_0 (dstOf (F := F) e))
    (broadcastInDim S350000 ![] bcast_S_S350000 (constant (F := F) S_ .f32 0x3F800000#32))

/-- deg^(-1/2) where the degree is positive, else 0. -/
def disOf (e : (⟨S2x300000, .i32⟩ : BufTy).Contents (Elt F)) : (⟨S50000, .f32⟩ : BufTy).Contents (Elt F) :=
  select (cmpf .ogt (degOf (F := F) e) (broadcastInDim S50000 ![] bcast_S_S50000 (constant (F := F) S_ .f32 0x00000000#32)))
    (Host.rsqrt (maximumf (degOf (F := F) e) (broadcastInDim S50000 ![] bcast_S_S50000 (constant (F := F) S_ .f32 0x3F800000#32))))
    (broadcastInDim S50000 ![] bcast_S_S50000 (id (constant (F := F) S_ .f32 0x00000000#32)))

/-- An index list with its negative entries wrapped by the number of nodes. -/
def wrap (x : (⟨S350000, .i32⟩ : BufTy).Contents (Elt F)) : (⟨S350000, .i32⟩ : BufTy).Contents (Elt F) :=
  (select (cmpi .slt x (broadcastInDim S350000 ![] bcast_S_S350000 (constantI S_ 32 0#32)))
      (addi x (broadcastInDim S350000 ![] bcast_S_S350000 (constantI S_ 32 50000#32))) x)

/-- One weight per edge: the product of its end points' inverse square-root degrees. -/
def normOf (e : (⟨S2x300000, .i32⟩ : BufTy).Contents (Elt F)) : (⟨S350000, .f32⟩ : BufTy).Contents (Elt F) :=
  mulf
    (Host.gather gather_S50000_S350000x1_S350000_n_0_n_n_0_1_1 (disOf (F := F) e)
      (broadcastInDim S350000x1 ![0] bcast_S350000_S350000x1_0 (wrap (F := F) (srcOf (F := F) e))))
    (Host.gather gather_S50000_S350000x1_S350000_n_0_n_n_0_1_1 (disOf (F := F) e)
      (broadcastInDim S350000x1 ![0] bcast_S350000_S350000x1_0 (wrap (F := F) (dstOf (F := F) e))))

/-! ## The layers -/

/-- A hidden layer after its product `p`: gather at the sources, scale by the edge weight, sum into the targets,
    add the bias row, rectify. -/
def hidden (p : (⟨S50000x256, .f32⟩ : BufTy).Contents (Elt F)) (src dst : (⟨S350000, .i32⟩ : BufTy).Contents (Elt F))
    (norm : (⟨S350000, .f32⟩ : BufTy).Contents (Elt F)) (b : (⟨S256, .f32⟩ : BufTy).Contents (Elt F)) :
    (⟨S50000x256, .f32⟩ : BufTy).Contents (Elt F) :=
  maximumf
    (addf
      (Host.scatterAdd scatter_S50000x256_S350000x1_S350000x256_1_0_0_1
        (broadcastInDim S50000x256 ![] bcast_S_S50000x256 (constant (F := F) S_ .f32 0x00000000#32))
        (broadcastInDim S350000x1 ![0] bcast_S350000_S350000x1_0 dst)
        (mulf
          (Host.gather gather_S50000x256_S350000x1_S350000x256_1_0_n_n_0_1_1256 p
            (broadcastInDim S350000x1 ![0] bcast_S350000_S350000x1_0 (wrap (F := F) src)))
          (broadcastInDim S350000x256 ![0, 1] bcast_S350000x1_S350000x256_0_1
            (broadcastInDim S350000x1 ![0] bcast_S350000_S350000x1_0 norm))))
      (broadcastInDim S50000x256 ![0, 1] bcast_S1x256_S50000x256_0_1 (broadcastInDim S1x256 ![1] bcast_S256_S1x256_1 b)))
    (broadcastInDim S50000x256 ![] bcast_S_S50000x256 (constant (F := F) S_ .f32 0x00000000#32))

/-- The last layer after its product `p` (128 classes), summed over all rows: the pooled row. -/
def pooled (p : (⟨S50000x128, .f32⟩ : BufTy).Contents (Elt F)) (src dst : (⟨S350000, .i32⟩ : BufTy).Contents (Elt F))
    (norm : (⟨S350000, .f32⟩ : BufTy).Contents (Elt F)) (b : (⟨S128, .f32⟩ : BufTy).Contents (Elt F)) :
    (⟨S1x128, .f32⟩ : BufTy).Contents (Elt F) :=
  broadcastInDim S1x128 ![1] bcast_S128_S1x128_1
    (Host.reduceAdd
      (addf
        (Host.scatterAdd scatter_S50000x128_S350000x1_S350000x128_1_0_0_1
          (broadcastInDim S50000x128 ![] bcast_S_S50000x128 (constant (F := F) S_ .f32 0x00000000#32))
          (broadcastInDim S350000x1 ![0] bcast_S350000_S350000x1_0 dst)
          (mulf
            (Host.gather gather_S50000x128_S350000x1_S350000x128_1_0_n_n_0_1_1128 p
              (broadcastInDim S350000x1 ![0] bcast_S350000_S350000x1_0 (wrap (F := F) src)))
            (broadcastInDim S350000x128 ![0, 1] bcast_S350000x1_S350000x128_0_1
              (broadcastInDim S350000x1 ![0] bcast_S350000_S350000x1_0 norm))))
        (broadcastInDim S50000x128 ![0, 1] bcast_S1x128_S50000x128_0_1 (broadcastInDim S1x128 ![1] bcast_S128_S1x128_1 b)))
      (constant (F := F) S_ .f32 0x00000000#32) reducesTo_S50000x128_S128_d0 h_S_)

/-- The shift of the log-softmax: the row's maximum (against −∞), broadcast back along the row. -/
def rowMax (p : (⟨S1x128, .f32⟩ : BufTy).Contents (Elt F)) : (⟨S1x128, .f32⟩ : BufTy).Contents (Elt F) :=
  broadcastInDim S1x128 ![0, 1] bcast_S1x1_S1x128_0_1
    (broadcastInDim S1x1 ![0] bcast_S1_S1x1_0
      (maximumf (broadcastInDim S1 ![] bcast_S_S1 (constant (F := F) S_ .f32 0xFF800000#32))
        (Host.reduce FloatOps.maximumf p (constant (F := F) S_ .f32 0xFF800000#32) reducesTo_S1x128_S1_d1 h_S_)))

/-- The log-softmax of the pooled row: (p − max) − log ∑ exp (p − max). -/
def logSoftmax (p : (⟨S1x128, .f32⟩ : BufTy).Contents (Elt F)) : (⟨S1x128, .f32⟩ : BufTy).Contents (Elt F) :=
  subf (subf p (rowMax (F := F) p))
    (broadcastInDim S1x128 ![0, 1] bcast_S1x1_S1x128_0_1
      (Host.log
        (broadcastInDim S1x1 ![0] bcast_S1_S1x1_0
          (Host.reduceAdd (Host.exp (subf p (rowMax (F := F) p))) (constant (F := F) S_ .f32 0x00000000#32)
            reducesTo_S1x128_S1_d1 h_S_))))

/-! ## The host's matrix products are the dense product -/

theorem hostProduct256_left_row (j : S50000x256.Idx) (q : (dot_S50000x256_S256x256_S50000x256_1_0_0_1_n_n).contr.Idx) : ((dot_S50000x256_S256x256_S50000x256_1_0_0_1_n_n).lhsIdx j q 0).val = (j 0).val := by
  unfold DotDims.lhsIdx
  rw [dif_neg (show ¬(0 : Fin S50000x256.rank) ∈ (dot_S50000x256_S256x256_S50000x256_1_0_0_1_n_n).lhsBatch by decide), dif_pos (show (0 : Fin S50000x256.rank) ∈ (dot_S50000x256_S256x256_S50000x256_1_0_0_1_n_n).lhsNonContracting by decide)]
  rfl
theorem hostProduct256_left_col (j : S50000x256.Idx) (q : (dot_S50000x256_S256x256_S50000x256_1_0_0_1_n_n).contr.Idx) : ((dot_S50000x256_S256x256_S50000x256_1_0_0_1_n_n).lhsIdx j q 1).val = (q ⟨0, by decide⟩).val :=
  (dot_S50000x256_S256x256_S50000x256_1_0_0_1_n_n).lhsIdx_val_of_single rfl j q
theorem hostProduct256_right_row (j : S50000x256.Idx) (q : (dot_S50000x256_S256x256_S50000x256_1_0_0_1_n_n).contr.Idx) : ((dot_S50000x256_S256x256_S50000x256_1_0_0_1_n_n).rhsIdx j q 0).val = (q ⟨0, by decide⟩).val :=
  (dot_S50000x256_S256x256_S50000x256_1_0_0_1_n_n).rhsIdx_val_of_single rfl j q
theorem hostProduct256_right_col (j : S50000x256.Idx) (q : (dot_S50000x256_S256x256_S50000x256_1_0_0_1_n_n).contr.Idx) : ((dot_S50000x256_S256x256_S50000x256_1_0_0_1_n_n).rhsIdx j q 1).val = (j 1).val := by
  unfold DotDims.rhsIdx
  rw [dif_neg (show ¬(1 : Fin S256x256.rank) ∈ (dot_S50000x256_S256x256_S50000x256_1_0_0_1_n_n).rhsBatch by decide), dif_pos (show (1 : Fin S256x256.rank) ∈ (dot_S50000x256_S256x256_S50000x256_1_0_0_1_n_n).rhsNonContracting by decide)]
  rfl

/-- The host's product is the dense product: at entry (r, q) the sum over k of H (r, k) · W (k, q). -/
theorem hostProduct256 (h : FVec Ideal S50000x256 .f32) (w : FVec Ideal S256x256 .f32) :
    Host.dotGeneral dot_S50000x256_S256x256_S50000x256_1_0_0_1_n_n none h w = dense256 h w := by
  funext j
  simp only [Host.dotGeneral]
  rw [Ideal.dotGeneral_apply, ← Equiv.sum_comp (contrEquiv1 dot_S50000x256_S256x256_S50000x256_1_0_0_1_n_n 256 rfl rfl).symm]
  unfold dense256
  refine Finset.sum_congr rfl fun k _ => ?_
  have hk := contrEquiv1_symm_val dot_S50000x256_S256x256_S50000x256_1_0_0_1_n_n 256 rfl rfl k
  have el : (dot_S50000x256_S256x256_S50000x256_1_0_0_1_n_n).lhsIdx j ((contrEquiv1 dot_S50000x256_S256x256_S50000x256_1_0_0_1_n_n 256 rfl rfl).symm k) = ix2 (j 0) k := funext fun a => Fin.ext (by
    match a with
    | ⟨0, _⟩ => exact hostProduct256_left_row _ _
    | ⟨1, _⟩ => exact (hostProduct256_left_col _ _).trans hk)
  have er : (dot_S50000x256_S256x256_S50000x256_1_0_0_1_n_n).rhsIdx j ((contrEquiv1 dot_S50000x256_S256x256_S50000x256_1_0_0_1_n_n 256 rfl rfl).symm k) = ix2 k (j 1) := funext fun a => Fin.ext (by
    match a with
    | ⟨0, _⟩ => exact (hostProduct256_right_row _ _).trans hk
    | ⟨1, _⟩ => exact hostProduct256_right_col _ _)
  rw [el, er]
  rfl

theorem hostProduct128_left_row (j : S50000x128.Idx) (q : (dot_S50000x256_S256x128_S50000x128_1_0_0_1_n_n).contr.Idx) : ((dot_S50000x256_S256x128_S50000x128_1_0_0_1_n_n).lhsIdx j q 0).val = (j 0).val := by
  unfold DotDims.lhsIdx
  rw [dif_neg (show ¬(0 : Fin S50000x256.rank) ∈ (dot_S50000x256_S256x128_S50000x128_1_0_0_1_n_n).lhsBatch by decide), dif_pos (show (0 : Fin S50000x256.rank) ∈ (dot_S50000x256_S256x128_S50000x128_1_0_0_1_n_n).lhsNonContracting by decide)]
  rfl
theorem hostProduct128_left_col (j : S50000x128.Idx) (q : (dot_S50000x256_S256x128_S50000x128_1_0_0_1_n_n).contr.Idx) : ((dot_S50000x256_S256x128_S50000x128_1_0_0_1_n_n).lhsIdx j q 1).val = (q ⟨0, by decide⟩).val :=
  (dot_S50000x256_S256x128_S50000x128_1_0_0_1_n_n).lhsIdx_val_of_single rfl j q
theorem hostProduct128_right_row (j : S50000x128.Idx) (q : (dot_S50000x256_S256x128_S50000x128_1_0_0_1_n_n).contr.Idx) : ((dot_S50000x256_S256x128_S50000x128_1_0_0_1_n_n).rhsIdx j q 0).val = (q ⟨0, by decide⟩).val :=
  (dot_S50000x256_S256x128_S50000x128_1_0_0_1_n_n).rhsIdx_val_of_single rfl j q
theorem hostProduct128_right_col (j : S50000x128.Idx) (q : (dot_S50000x256_S256x128_S50000x128_1_0_0_1_n_n).contr.Idx) : ((dot_S50000x256_S256x128_S50000x128_1_0_0_1_n_n).rhsIdx j q 1).val = (j 1).val := by
  unfold DotDims.rhsIdx
  rw [dif_neg (show ¬(1 : Fin S256x128.rank) ∈ (dot_S50000x256_S256x128_S50000x128_1_0_0_1_n_n).rhsBatch by decide), dif_pos (show (1 : Fin S256x128.rank) ∈ (dot_S50000x256_S256x128_S50000x128_1_0_0_1_n_n).rhsNonContracting by decide)]
  rfl

/-- The host's product is the dense product: at entry (r, q) the sum over k of H (r, k) · W (k, q). -/
theorem hostProduct128 (h : FVec Ideal S50000x256 .f32) (w : FVec Ideal S256x128 .f32) :
    Host.dotGeneral dot_S50000x256_S256x128_S50000x128_1_0_0_1_n_n none h w = dense128 h w := by
  funext j
  simp only [Host.dotGeneral]
  rw [Ideal.dotGeneral_apply, ← Equiv.sum_comp (contrEquiv1 dot_S50000x256_S256x128_S50000x128_1_0_0_1_n_n 256 rfl rfl).symm]
  unfold dense128
  refine Finset.sum_congr rfl fun k _ => ?_
  have hk := contrEquiv1_symm_val dot_S50000x256_S256x128_S50000x128_1_0_0_1_n_n 256 rfl rfl k
  have el : (dot_S50000x256_S256x128_S50000x128_1_0_0_1_n_n).lhsIdx j ((contrEquiv1 dot_S50000x256_S256x128_S50000x128_1_0_0_1_n_n 256 rfl rfl).symm k) = ix2 (j 0) k := funext fun a => Fin.ext (by
    match a with
    | ⟨0, _⟩ => exact hostProduct128_left_row _ _
    | ⟨1, _⟩ => exact (hostProduct128_left_col _ _).trans hk)
  have er : (dot_S50000x256_S256x128_S50000x128_1_0_0_1_n_n).rhsIdx j ((contrEquiv1 dot_S50000x256_S256x128_S50000x128_1_0_0_1_n_n 256 rfl rfl).symm k) = ix2 k (j 1) := funext fun a => Fin.ext (by
    match a with
    | ⟨0, _⟩ => exact (hostProduct128_right_row _ _).trans hk
    | ⟨1, _⟩ => exact hostProduct128_right_col _ _)
  rw [el, er]
  rfl

/-! ## The whole network, over the extended reals -/

section Network

variable (x : (⟨S50000x256, .f32⟩ : BufTy).Contents (Elt Ideal)) (e : (⟨S2x300000, .i32⟩ : BufTy).Contents (Elt Ideal))
  (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal))
  (w3 : (⟨S256x256, .f32⟩ : BufTy).Contents (Elt Ideal)) (b3 : (⟨S256, .f32⟩ : BufTy).Contents (Elt Ideal)) (w4 : (⟨S256x128, .f32⟩ : BufTy).Contents (Elt Ideal)) (b4 : (⟨S128, .f32⟩ : BufTy).Contents (Elt Ideal))

/-- The node features after the first layer. -/
def features1 : (⟨S50000x256, .f32⟩ : BufTy).Contents (Elt Ideal) :=
  hidden (F := Ideal) (dense256 x w1) (srcOf (F := Ideal) e) (dstOf (F := Ideal) e) (normOf (F := Ideal) e) b1
/-- After the second layer. -/
def features2 : (⟨S50000x256, .f32⟩ : BufTy).Contents (Elt Ideal) :=
  hidden (F := Ideal) (dense256 (features1 x e w1 b1) w2) (srcOf (F := Ideal) e) (dstOf (F := Ideal) e) (normOf (F := Ideal) e) b2
/-- After the third layer. -/
def features3 : (⟨S50000x256, .f32⟩ : BufTy).Contents (Elt Ideal) :=
  hidden (F := Ideal) (dense256 (features2 x e w1 b1 w2 b2) w3) (srcOf (F := Ideal) e) (dstOf (F := Ideal) e) (normOf (F := Ideal) e) b3
/-- The first result: the last layer's output summed over the nodes. -/
def pooledOut : (⟨S1x128, .f32⟩ : BufTy).Contents (Elt Ideal) :=
  pooled (F := Ideal) (dense128 (features3 x e w1 b1 w2 b2 w3 b3) w4) (srcOf (F := Ideal) e) (dstOf (F := Ideal) e) (normOf (F := Ideal) e) b4
/-- The second result: its log-softmax. -/
def logProbs : (⟨S1x128, .f32⟩ : BufTy).Contents (Elt Ideal) :=
  logSoftmax (F := Ideal) (pooledOut x e w1 b1 w2 b2 w3 b3 w4 b4)

end Network

end Cert.Layers

end
-- ==== Proof.KernelStretches.lean ====
/-
  The kernel program's host stretches, read. Between its pallas_calls the kernel program runs the same host
  operations as the reference: from ANY contents W of the buffers at a stretch's entry, the stretch leaves the edge
  lists and weights (first stretch), a hidden layer's output (the stretches after calls 1 to 3) or the pooled row and
  its log-softmax (the last stretch) as the convolution's functions of the buffers it reads.
-/
import proofs.«154524_j43173011259684_1_alg».proof.Proof.Gen.KernelIdeal.Launch
import proofs.«154524_j43173011259684_1_alg».proof.Proof.Gen.ReferenceIdeal
import proofs.«154524_j43173011259684_1_alg».proof.Proof.Layers
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Cert.Layers

variable {F : FTy → Type} [FloatOps F]
variable (W : Valuation τ sig (Elt F))

/-! ## The first stretch: the edges -/

theorem sources : StableHlo.after hostOps0_2 (StableHlo.after hostOps0_1 (StableHlo.after hostOps0 W)) (Proc.devRef .tc main_v3) = srcOf (F := F) (W (Proc.devRef .tc main_arg1)) := by
  dsimp only [hostOps0, hostOps0_1, hostOps0_2]
  after_results
  rfl

theorem targets : StableHlo.after hostOps0_2 (StableHlo.after hostOps0_1 (StableHlo.after hostOps0 W)) (Proc.devRef .tc main_v6) = dstOf (F := F) (W (Proc.devRef .tc main_arg1)) := by
  dsimp only [hostOps0, hostOps0_1, hostOps0_2]
  after_results
  rfl

set_option maxHeartbeats 4000000 in
theorem weights : StableHlo.after hostOps0_2 (StableHlo.after hostOps0_1 (StableHlo.after hostOps0 W)) (Proc.devRef .tc main_v31) = normOf (F := F) (W (Proc.devRef .tc main_arg1)) := by
  dsimp only [hostOps0, hostOps0_1, hostOps0_2]
  after_results
  rfl

/-! ## A hidden layer after its product -/

theorem hidden1 : StableHlo.after hostOps1_1 (StableHlo.after hostOps1 W) (Proc.devRef .tc main_v49)
    = hidden (F := F) (W (Proc.devRef .tc main_v32)) (W (Proc.devRef .tc main_v3)) (W (Proc.devRef .tc main_v6)) (W (Proc.devRef .tc main_v31)) (W (Proc.devRef .tc main_arg3)) := by
  dsimp only [hostOps1, hostOps1_1]
  after_results_simp
  rfl

theorem hidden2 : StableHlo.after hostOps2_1 (StableHlo.after hostOps2 W) (Proc.devRef .tc main_v67)
    = hidden (F := F) (W (Proc.devRef .tc main_v50)) (W (Proc.devRef .tc main_v3)) (W (Proc.devRef .tc main_v6)) (W (Proc.devRef .tc main_v31)) (W (Proc.devRef .tc main_arg5)) := by
  dsimp only [hostOps2, hostOps2_1]
  after_results_simp
  rfl

theorem hidden3 : StableHlo.after hostOps3_1 (StableHlo.after hostOps3 W) (Proc.devRef .tc main_v85)
    = hidden (F := F) (W (Proc.devRef .tc main_v68)) (W (Proc.devRef .tc main_v3)) (W (Proc.devRef .tc main_v6)) (W (Proc.devRef .tc main_v31)) (W (Proc.devRef .tc main_arg7)) := by
  dsimp only [hostOps3, hostOps3_1]
  after_results_simp
  rfl

/-! ## The last stretch: the pooled row and its log-softmax -/

theorem pooledRow : StableHlo.after hostOps4 W (Proc.devRef .tc main_v104)
    = pooled (F := F) (W (Proc.devRef .tc main_v86)) (W (Proc.devRef .tc main_v3)) (W (Proc.devRef .tc main_v6)) (W (Proc.devRef .tc main_v31)) (W (Proc.devRef .tc main_arg9)) := by
  dsimp only [hostOps4]
  after_results_simp
  rfl

theorem pooledKept : StableHlo.after hostOps4_1 W (Proc.devRef .tc main_v104) = W (Proc.devRef .tc main_v104) := by
  dsimp only [hostOps4_1]
  after_results_simp

theorem logSoftmaxRow : StableHlo.after hostOps4_1 W (Proc.devRef .tc main_v105) = logSoftmax (F := F) (W (Proc.devRef .tc main_v104)) := by
  dsimp only [hostOps4_1]
  after_results_simp
  rfl

end Cert.KernelIdeal.Stretches

end
-- ==== Proof.BlockProduct.lean ====
/-
  The body of each of the four kernels is ONE matrix product of the two blocks it loads, into a zero accumulator:
  the left block [5000, 256] (rows of the layer's input), the right block the whole weight matrix [256, n]
  (n = 256 for the three hidden layers, n = 128 for the last). Over the extended reals the change of float format
  before the product is the identity and the product into zero is the plain sum, so the payload at an entry (p, q)
  of the block is  ∑ k, left (p, k) · right (k, q).
-/
import proofs.«154524_j43173011259684_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## The operand entries that meet at an output entry -/

/-- Entry (row of `j`, `k`) of the left block, for an output entry `j` of the wide block. -/
abbrev leftAt256 (j : S5000x256.Idx) (k : Fin 256) : S5000x256.Idx := fun a => match a with
  | ⟨0, _⟩ => ⟨(j 0).val, (j 0).isLt⟩
  | ⟨1, _⟩ => ⟨k.val, k.isLt⟩
/-- Entry (`k`, column of `j`) of the square weight matrix. -/
abbrev rightAt256 (j : S5000x256.Idx) (k : Fin 256) : S256x256.Idx := fun a => match a with
  | ⟨0, _⟩ => ⟨k.val, k.isLt⟩
  | ⟨1, _⟩ => ⟨(j 1).val, (j 1).isLt⟩
/-- Entry (row of `j`, `k`) of the left block, for an output entry `j` of the narrow block. -/
abbrev leftAt128 (j : S5000x128.Idx) (k : Fin 256) : S5000x256.Idx := fun a => match a with
  | ⟨0, _⟩ => ⟨(j 0).val, (j 0).isLt⟩
  | ⟨1, _⟩ => ⟨k.val, k.isLt⟩
/-- Entry (`k`, column of `j`) of the last layer's weight matrix. -/
abbrev rightAt128 (j : S5000x128.Idx) (k : Fin 256) : S256x128.Idx := fun a => match a with
  | ⟨0, _⟩ => ⟨k.val, k.isLt⟩
  | ⟨1, _⟩ => ⟨(j 1).val, (j 1).isLt⟩

/-! ## The dimension numbers' operand indices, coordinate by coordinate -/

local notation "d256" => dot_S5000x256_S256x256_S5000x256_1_0_0_1_n_n
local notation "d128" => dot_S5000x256_S256x128_S5000x128_1_0_0_1_n_n

theorem left256_row (j : S5000x256.Idx) (q : (d256).contr.Idx) : ((d256).lhsIdx j q 0).val = (j 0).val := by
  unfold DotDims.lhsIdx
  rw [dif_neg (show ¬(0 : Fin S5000x256.rank) ∈ (d256).lhsBatch by decide), dif_pos (show (0 : Fin S5000x256.rank) ∈ (d256).lhsNonContracting by decide)]
  rfl
theorem left256_col (j : S5000x256.Idx) (q : (d256).contr.Idx) : ((d256).lhsIdx j q 1).val = (q ⟨0, by decide⟩).val :=
  (d256).lhsIdx_val_of_single rfl j q
theorem right256_row (j : S5000x256.Idx) (q : (d256).contr.Idx) : ((d256).rhsIdx j q 0).val = (q ⟨0, by decide⟩).val :=
  (d256).rhsIdx_val_of_single rfl j q
theorem right256_col (j : S5000x256.Idx) (q : (d256).contr.Idx) : ((d256).rhsIdx j q 1).val = (j 1).val := by
  unfold DotDims.rhsIdx
  rw [dif_neg (show ¬(1 : Fin S256x256.rank) ∈ (d256).rhsBatch by decide), dif_pos (show (1 : Fin S256x256.rank) ∈ (d256).rhsNonContracting by decide)]
  rfl

theorem left128_row (j : S5000x128.Idx) (q : (d128).contr.Idx) : ((d128).lhsIdx j q 0).val = (j 0).val := by
  unfold DotDims.lhsIdx
  rw [dif_neg (show ¬(0 : Fin S5000x256.rank) ∈ (d128).lhsBatch by decide), dif_pos (show (0 : Fin S5000x256.rank) ∈ (d128).lhsNonContracting by decide)]
  rfl
theorem left128_col (j : S5000x128.Idx) (q : (d128).contr.Idx) : ((d128).lhsIdx j q 1).val = (q ⟨0, by decide⟩).val :=
  (d128).lhsIdx_val_of_single rfl j q
theorem right128_row (j : S5000x128.Idx) (q : (d128).contr.Idx) : ((d128).rhsIdx j q 0).val = (q ⟨0, by decide⟩).val :=
  (d128).rhsIdx_val_of_single rfl j q
theorem right128_col (j : S5000x128.Idx) (q : (d128).contr.Idx) : ((d128).rhsIdx j q 1).val = (j 1).val := by
  unfold DotDims.rhsIdx
  rw [dif_neg (show ¬(1 : Fin S256x128.rank) ∈ (d128).rhsBatch by decide), dif_pos (show (1 : Fin S256x128.rank) ∈ (d128).rhsNonContracting by decide)]
  rfl

/-! ## The product into a zero accumulator is the sum over the contracted coordinate -/

theorem product256 (x : FVec Ideal S5000x256 .f32) (w : FVec Ideal S256x256 .f32) (j : S5000x256.Idx) :
    FloatOps.matmul d256 none x w (constant S5000x256 .f32 0x00000000#32) j
      = ∑ k : Fin 256, x (leftAt256 j k) * w (rightAt256 j k) := by
  rw [Ideal.matmul_constant_zero_apply, ← Equiv.sum_comp (contrEquiv1 d256 256 rfl rfl).symm]
  refine Finset.sum_congr rfl fun k _ => ?_
  have hk := contrEquiv1_symm_val d256 256 rfl rfl k
  have el : (d256).lhsIdx j ((contrEquiv1 d256 256 rfl rfl).symm k) = leftAt256 j k := funext fun a => Fin.ext (by
    match a with
    | ⟨0, _⟩ => exact left256_row _ _
    | ⟨1, _⟩ => exact (left256_col _ _).trans hk)
  have er : (d256).rhsIdx j ((contrEquiv1 d256 256 rfl rfl).symm k) = rightAt256 j k := funext fun a => Fin.ext (by
    match a with
    | ⟨0, _⟩ => exact (right256_row _ _).trans hk
    | ⟨1, _⟩ => exact right256_col _ _)
  rw [el, er]

theorem product128 (x : FVec Ideal S5000x256 .f32) (w : FVec Ideal S256x128 .f32) (j : S5000x128.Idx) :
    FloatOps.matmul d128 none x w (constant S5000x128 .f32 0x00000000#32) j
      = ∑ k : Fin 256, x (leftAt128 j k) * w (rightAt128 j k) := by
  rw [Ideal.matmul_constant_zero_apply, ← Equiv.sum_comp (contrEquiv1 d128 256 rfl rfl).symm]
  refine Finset.sum_congr rfl fun k _ => ?_
  have hk := contrEquiv1_symm_val d128 256 rfl rfl k
  have el : (d128).lhsIdx j ((contrEquiv1 d128 256 rfl rfl).symm k) = leftAt128 j k := funext fun a => Fin.ext (by
    match a with
    | ⟨0, _⟩ => exact left128_row _ _
    | ⟨1, _⟩ => exact (left128_col _ _).trans hk)
  have er : (d128).rhsIdx j ((contrEquiv1 d128 256 rfl rfl).symm k) = rightAt128 j k := funext fun a => Fin.ext (by
    match a with
    | ⟨0, _⟩ => exact (right128_row _ _).trans hk
    | ⟨1, _⟩ => exact right128_col _ _)
  rw [el, er]

/-! ## The four payloads -/

/-- Layer 1's payload: the narrowing of both blocks is the identity on the extended reals. -/
theorem pay0_apply (x : Vec Ideal S5000x256 .f32) (w : Vec Ideal S256x256 .f32) (j : S5000x256.Idx) :
    k0_pay1 (F := Ideal) x w j = ∑ k : Fin 256, x (leftAt256 j k) * w (rightAt256 j k) :=
  product256 x w j

/-- Layers 2 and 3 first recast the left block to its own shape, which changes nothing. -/
theorem pay1_apply (x : Vec Ideal S5000x256 .f32) (w : Vec Ideal S256x256 .f32) (j : S5000x256.Idx) :
    k1_pay1 (F := Ideal) x w j = ∑ k : Fin 256, x (leftAt256 j k) * w (rightAt256 j k) := by
  unfold k1_pay1
  rw [shapeCast_self]
  exact product256 x w j

theorem pay2_apply (x : Vec Ideal S5000x256 .f32) (w : Vec Ideal S256x256 .f32) (j : S5000x256.Idx) :
    k2_pay1 (F := Ideal) x w j = ∑ k : Fin 256, x (leftAt256 j k) * w (rightAt256 j k) := by
  unfold k2_pay1
  rw [shapeCast_self]
  exact product256 x w j

/-- The last layer's payload, into the narrow block. -/
theorem pay3_apply (x : Vec Ideal S5000x256 .f32) (w : Vec Ideal S256x128 .f32) (j : S5000x128.Idx) :
    k3_pay1 (F := Ideal) x w j = ∑ k : Fin 256, x (leftAt128 j k) * w (rightAt128 j k) := by
  unfold k3_pay1
  rw [shapeCast_self]
  exact product128 x w j

end Cert.KernelIdeal.BlockProduct

end
-- ==== Proof.RegionProduct.lean ====
/-
  What each of the four pallas_calls leaves in its output array, as one function of the arrays it finds.
  The grid has ten points; at point t the kernel loads rows 5000·t … 5000·t + 4999 of the features H and the whole
  weight matrix W, and writes the product of the two blocks to the same rows of the output. Row r of H · W depends on
  row r of H only, so block t of the output is block t of the dense product H · W; the ten blocks tile the 50000 rows,
  so the output array ends as H · W.
-/
import proofs.«154524_j43173011259684_1_alg».proof.Proof.Gen.KernelIdeal.Frame
import proofs.«154524_j43173011259684_1_alg».proof.Proof.BlockProduct
import proofs.«154524_j43173011259684_1_alg».proof.Proof.DenseSpec

set_option maxRecDepth 16384

noncomputable section

namespace Cert.KernelIdeal.RegionProduct

open Cert.KernelIdeal Cert.KernelIdeal.Gen Idealize.ShloMosaic Idealize.ShloMosaic.TcCoe Idealize.ShloMosaic.ValueIdx
open Idealize.SL.Sem
open Idealize.ShloMosaic.Pipeline (Dat)
open Cert.DenseSpec Cert.KernelIdeal.BlockProduct

variable (V : (c : Dev nD) → (b : Ref sig .tc) → Buf (Elt Ideal) ((c : Thread nD τ).loc b))

theorem zeros2 : (![0, 0] : Fin 2 → Nat) = fun _ => 0 := funext fun a => by fin_cases a <;> rfl

/-! ## Layer 1: H = the node features, W = the first weight matrix -/

/-- The block indices of the three windows at each grid point: the features' and the output's block is the point's
    row block, the weight matrix is one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the arrays the call finds: an entry of the
    block product reads row 5000·t + p of the features, the row of the same entry of the whole product. -/
theorem written0 (c : Dev nD) (t : Fin cfg0.N) :
    (dat0 V c).flushed 2 t = ((cfg0.win 2).blk t).view.read (Elt Ideal) (dense256 (V c main_arg0) (V c main_arg2)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x256) zeros2]
  obtain ⟨e0, e1, e2, e3, e4, e5⟩ := blocks0 t
  funext j
  show k0_pay1 (iblk0 V c 0 t) (iblk0 V c 1 t) j = dense256 (V c main_arg0) (V c main_arg2) (((cfg0.win 2).blk t).view.emb j)
  refine (pay0_apply (iblk0 V c 0 t) (iblk0 V c 1 t) j).trans ?_
  unfold dense256
  refine Finset.sum_congr rfl fun k _ => ?_
  have hl : iblk0 V c 0 t (leftAt256 j k) = V c main_arg0 (ix2 ((((cfg0.win 2).blk t).view.emb j) 0) k) := by
    show V c main_arg0 (((cfg0.win 0).blk t).view.emb (leftAt256 j k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have hr : iblk0 V c 1 t (rightAt256 j k) = V c main_arg2 (ix2 k ((((cfg0.win 2).blk t).view.emb j) 1)) := by
    show V c main_arg2 (((cfg0.win 1).blk t).view.emb (rightAt256 j k)) = _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega
  rw [hl, hr]

/-- An entry of the output array lies in point `t`'s block iff each coordinate is in the block's range. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- Row r lies in the block of point r / 5000: the ten blocks cover the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 10 := N_0
  have ht : (i 0).val / 5000 < cfg0.N := by show (i 0).val / 5000 < grid0.N; omega
  obtain ⟨e0, e1, e2, e3, e4, e5⟩ := blocks0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 256 ≤ (i 1).val ∧ (i 1).val < win0_2.index ⟨(i 0).val / 5000, ht⟩ (1 : Fin 2) * 256 + 256
    omega

/-- The output array after the call: the dense product of the two arrays the call finds. -/
theorem region0 (c : Dev nD) : (dat0 V c).arrAt 2 cfg0.N = dense256 (V c main_arg0) (V c main_arg2) :=
  (dat0 V c).arrAt_eq_of_cover 2 _ (fun t _ => written0 V c t) cover0

/-! ## Layer 2: H = layer 1's output -/

/-- The block indices of the three windows at each grid point: the features' and the output's block is the point's
    row block, the weight matrix is one block. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the dense product of the arrays the call finds: an entry of the
    block product reads row 5000·t + p of the features, the row of the same entry of the whole product. -/
theorem written1 (c : Dev nD) (t : Fin cfg1.N) :
    (dat1 V c).flushed 2 t = ((cfg1.win 2).blk t).view.read (Elt Ideal) (dense256 (V c main_v49) (V c main_arg4)) := by
  show (cfg1.win 2).cut (grid1.coords t) ((dat1 V c).after 2 t) = _
  rw [after1_2]
  unfold out1_2
  rw [View.canon_unit_zero zeros2]
  simp only [View.ld_unit_zero (S := S5000x256) zeros2, View.ld_unit_zero (S := S256x256) zeros2]
  obtain ⟨e0, e1, e2, e3, e4, e5⟩ := blocks1 t
  funext j
  show k1_pay1 (iblk1 V c 0 t) (iblk1 V c 1 t) j = dense256 (V c main_v49) (V c main_arg4) (((cfg1.win 2).blk t).view.emb j)
  refine (pay1_apply (iblk1 V c 0 t) (iblk1 V c 1 t) j).trans ?_
  unfold dense256
  refine Finset.sum_congr rfl fun k _ => ?_
  have hl : iblk1 V c 0 t (leftAt256 j k) = V c main_v49 (ix2 ((((cfg1.win 2).blk t).view.emb j) 0) k) := by
    show V c main_v49 (((cfg1.win 0).blk t).view.emb (leftAt256 j k)) = _
    refine congrArg (V c main_v49) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 256 + 1 * k.val = k.val
      omega
  have hr : iblk1 V c 1 t (rightAt256 j k) = V c main_arg4 (ix2 k ((((cfg1.win 2).blk t).view.emb j) 1)) := by
    show V c main_arg4 (((cfg1.win 1).blk t).view.emb (rightAt256 j k)) = _
    refine congrArg (V c main_arg4) (funext fun a => Fin.ext ?_)
    match a with
    | ⟨0, _⟩ =>
      show win1_1.index t (0 : Fin 2) * 256 + 1 * k.val = k.val
      omega
    | ⟨1, _⟩ =>
      show win1_1.index t (1 : Fin 2) * 256 + 1 * (j 1).val = win1_2.index t (1 : Fin 2) * 256 + 1 * (j 1).val
      omega
  rw [hl, hr]

/-- An entry of the output array lies in point `t`'s block iff each coordinate is in the block's range. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v50).slice (win1_2.rect t)).set ↔ _
  rw [View.set_slice_whole, Rect.mem_set_unit]
  exact Iff.rfl

/-- Row r lies in the block of point r / 5000: the ten blocks cover the array. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 10 := N_1
  have ht : (i 0).val / 5000 < cfg1.N := by show (i 0).val / 5000 < grid1.N; omega
  obtain ⟨e0, e1, e2, e3, e4, e5⟩ := blocks1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 256 ≤ (i 1).val ∧ (i 1).val < win1_2.index ⟨(i 0).val / 5000, ht⟩ (1 : Fin 2) * 256 + 256
    omega

/-- The output array after the call: the dense product of the two arrays the call finds. -/
theorem region1 (c : Dev nD) : (dat1 V c).arrAt 2 cfg1.N = dense256 (V c main_v49) (V c main_arg4) :=
  (dat1 V c).arrAt_eq_of_cover 2 _ (fun t _ => written1 V c t) cover1

/-! ## Layer 3: H = layer 2's output -/

/-- The block indices of the three windows at each grid point: the features' and the output's block is the point's
    row block, the weight matrix is one block. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the dense product of the arrays the call finds: an entry of the
    block product reads row 5000·t + p of the features, the row of the same entry of the whole product. -/
theorem written2 (c : Dev nD) (t : Fin cfg2.N) :
    (dat2 V c).flushed 2 t = ((cfg2.win 2).blk t).view.read (Elt Ideal) (dense256 (V c main_v67) (V c main_arg6)) := by
  show (cfg2.win 2).cut (grid2.coords t) ((dat2 V c).after 2 t) = _
  rw [after2_2]
  unfold out2_2
  rw [View.canon_unit_zero zeros2]
  simp only [View.ld_unit_zero (S := S5000x256) zeros2, View.ld_unit_zero (S := S256x256) zeros2]
  obtain ⟨e0, e1, e2, e3, e4, e5⟩ := blocks2 t
  funext j
  show k2_pay1 (iblk2 V c 0 t) (iblk2 V c 1 t) j = dense256 (V c main_v67) (V c main_arg6) (((cfg2.win 2).blk t).view.emb j)
  refine (pay2_apply (iblk2 V c 0 t) (iblk2 V c 1 t) j).trans ?_
  unfold dense256
  refine Finset.sum_congr rfl fun k _ => ?_
  have hl : iblk2 V c 0 t (leftAt256 j k) = V c main_v67 (ix2 ((((cfg2.win 2).blk t).view.emb j) 0) k) := by
    show V c main_v67 (((cfg2.win 0).blk t).view.emb (leftAt256 j k)) = _
    refine congrArg (V c main_v67) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 256 + 1 * k.val = k.val
      omega
  have hr : iblk2 V c 1 t (rightAt256 j k) = V c main_arg6 (ix2 k ((((cfg2.win 2).blk t).view.emb j) 1)) := by
    show V c main_arg6 (((cfg2.win 1).blk t).view.emb (rightAt256 j k)) = _
    refine congrArg (V c main_arg6) (funext fun a => Fin.ext ?_)
    match a with
    | ⟨0, _⟩ =>
      show win2_1.index t (0 : Fin 2) * 256 + 1 * k.val = k.val
      omega
    | ⟨1, _⟩ =>
      show win2_1.index t (1 : Fin 2) * 256 + 1 * (j 1).val = win2_2.index t (1 : Fin 2) * 256 + 1 * (j 1).val
      omega
  rw [hl, hr]

/-- An entry of the output array lies in point `t`'s block iff each coordinate is in the block's range. -/
theorem mem_block2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v68).slice (win2_2.rect t)).set ↔ _
  rw [View.set_slice_whole, Rect.mem_set_unit]
  exact Iff.rfl

/-- Row r lies in the block of point r / 5000: the ten blocks cover the array. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 10 := N_2
  have ht : (i 0).val / 5000 < cfg2.N := by show (i 0).val / 5000 < grid2.N; omega
  obtain ⟨e0, e1, e2, e3, e4, e5⟩ := blocks2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 256 ≤ (i 1).val ∧ (i 1).val < win2_2.index ⟨(i 0).val / 5000, ht⟩ (1 : Fin 2) * 256 + 256
    omega

/-- The output array after the call: the dense product of the two arrays the call finds. -/
theorem region2 (c : Dev nD) : (dat2 V c).arrAt 2 cfg2.N = dense256 (V c main_v67) (V c main_arg6) :=
  (dat2 V c).arrAt_eq_of_cover 2 _ (fun t _ => written2 V c t) cover2

/-! ## Layer 4: H = layer 3's output, W into the 128 classes -/

/-- The block indices of the three windows at each grid point: the features' and the output's block is the point's
    row block, the weight matrix is one block. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the dense product of the arrays the call finds: an entry of the
    block product reads row 5000·t + p of the features, the row of the same entry of the whole product. -/
theorem written3 (c : Dev nD) (t : Fin cfg3.N) :
    (dat3 V c).flushed 2 t = ((cfg3.win 2).blk t).view.read (Elt Ideal) (dense128 (V c main_v85) (V c main_arg8)) := by
  show (cfg3.win 2).cut (grid3.coords t) ((dat3 V c).after 2 t) = _
  rw [after3_2]
  unfold out3_2
  rw [View.canon_unit_zero zeros2]
  simp only [View.ld_unit_zero (S := S5000x256) zeros2, View.ld_unit_zero (S := S256x128) zeros2]
  obtain ⟨e0, e1, e2, e3, e4, e5⟩ := blocks3 t
  funext j
  show k3_pay1 (iblk3 V c 0 t) (iblk3 V c 1 t) j = dense128 (V c main_v85) (V c main_arg8) (((cfg3.win 2).blk t).view.emb j)
  refine (pay3_apply (iblk3 V c 0 t) (iblk3 V c 1 t) j).trans ?_
  unfold dense128
  refine Finset.sum_congr rfl fun k _ => ?_
  have hl : iblk3 V c 0 t (leftAt128 j k) = V c main_v85 (ix2 ((((cfg3.win 2).blk t).view.emb j) 0) k) := by
    show V c main_v85 (((cfg3.win 0).blk t).view.emb (leftAt128 j k)) = _
    refine congrArg (V c main_v85) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 256 + 1 * k.val = k.val
      omega
  have hr : iblk3 V c 1 t (rightAt128 j k) = V c main_arg8 (ix2 k ((((cfg3.win 2).blk t).view.emb j) 1)) := by
    show V c main_arg8 (((cfg3.win 1).blk t).view.emb (rightAt128 j k)) = _
    refine congrArg (V c main_arg8) (funext fun a => Fin.ext ?_)
    match a with
    | ⟨0, _⟩ =>
      show win3_1.index t (0 : Fin 2) * 256 + 1 * k.val = k.val
      omega
    | ⟨1, _⟩ =>
      show win3_1.index t (1 : Fin 2) * 128 + 1 * (j 1).val = win3_2.index t (1 : Fin 2) * 128 + 1 * (j 1).val
      omega
  rw [hl, hr]

/-- An entry of the output array lies in point `t`'s block iff each coordinate is in the block's range. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v86).slice (win3_2.rect t)).set ↔ _
  rw [View.set_slice_whole, Rect.mem_set_unit]
  exact Iff.rfl

/-- Row r lies in the block of point r / 5000: the ten blocks cover the array. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  obtain ⟨e0, e1, e2, e3, e4, e5⟩ := blocks3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_block3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    omega

/-- The output array after the call: the dense product of the two arrays the call finds. -/
theorem region3 (c : Dev nD) : (dat3 V c).arrAt 2 cfg3.N = dense128 (V c main_v85) (V c main_arg8) :=
  (dat3 V c).arrAt_eq_of_cover 2 _ (fun t _ => written3 V c t) cover3

end Cert.KernelIdeal.RegionProduct

end
-- ==== Proof.KernelNetwork.lean ====
/-
  The kernel program's two results as the network's functions of the launch arguments. Boundary by boundary: the
  first stretch computes the edge lists and weights from the edge index; each pallas_call leaves the dense product of
  the features it finds with the layer's weights; the stretch after it aggregates along the edges, adds the bias and
  rectifies; the last stretch pools over the nodes and takes the log-softmax. Every buffer a step reads is either the
  previous step's output or was never written since the launch or since the first stretch.
-/
import proofs.«154524_j43173011259684_1_alg».proof.Proof.Gen.KernelIdeal.Frame
import proofs.«154524_j43173011259684_1_alg».proof.Proof.Carried
import proofs.«154524_j43173011259684_1_alg».proof.Proof.KernelStretches
import proofs.«154524_j43173011259684_1_alg».proof.Proof.RegionProduct
import proofs.«154524_j43173011259684_1_alg».proof.Proof.Layers

set_option maxRecDepth 16384

noncomputable section

namespace Cert.KernelIdeal.Network

open Cert.KernelIdeal Cert.KernelIdeal.Gen Idealize.ShloMosaic Idealize.ShloMosaic.TcCoe Idealize.SL.Sem
open Cert.Layers Cert.DenseSpec Cert.KernelIdeal.Carried Cert.KernelIdeal.Stretches Cert.KernelIdeal.RegionProduct

variable (m : (ℓ : Loc nD τ sig) → Buf (Elt Ideal) ℓ) (ρ : Dev nD → PrngReg) (c : Dev nD)

/-! ## The edges, at the first call's entry -/

theorem edgeSources : W3 m ρ c (Proc.devRef .tc main_v3) = srcOf (F := Ideal) (m ((c : Thread nD τ).loc main_arg1)) :=
  sources (F := Ideal) (W0 m ρ c)
theorem edgeTargets : W3 m ρ c (Proc.devRef .tc main_v6) = dstOf (F := Ideal) (m ((c : Thread nD τ).loc main_arg1)) :=
  targets (F := Ideal) (W0 m ρ c)
theorem edgeWeights : W3 m ρ c (Proc.devRef .tc main_v31) = normOf (F := Ideal) (m ((c : Thread nD τ).loc main_arg1)) :=
  weights (F := Ideal) (W0 m ρ c)

/-! ## Layer 1 -/

/-- Call 1 leaves the dense product of what it finds; it finds the arguments as launched. -/
theorem product1 : W4 m ρ c (Proc.devRef .tc main_v32) = dense256 (m ((c : Thread nD τ).loc main_arg0)) (m ((c : Thread nD τ).loc main_arg2)) :=
  (W4_arr m ρ c 2).trans ((region0 (V3 m ρ) c).trans (by
    show dense256 (W3 m ρ c (Proc.devRef .tc main_arg0)) (W3 m ρ c (Proc.devRef .tc main_arg2)) = _
    rw [at3 m ρ c main_arg0 (by decide), at3 m ρ c main_arg2 (by decide)]))

/-- Layer 1's output: the stretch after the product reads the product, the edge lists and weights as first
    computed, and the bias as launched. -/
theorem layer1 : W6 m ρ c (Proc.devRef .tc main_v49) = features1 (m ((c : Thread nD τ).loc main_arg0)) (m ((c : Thread nD τ).loc main_arg1)) (m ((c : Thread nD τ).loc main_arg2)) (m ((c : Thread nD τ).loc main_arg3)) := by
  have h := hidden1 (F := Ideal) (W4 m ρ c)
  rw [product1 m ρ c, at4 m ρ c main_v3 (by decide), edgeSources m ρ c, at4 m ρ c main_v6 (by decide), edgeTargets m ρ c,
    at4 m ρ c main_v31 (by decide), edgeWeights m ρ c, at4 m ρ c main_arg3 (by decide), at3 m ρ c main_arg3 (by decide)] at h
  exact h

/-! ## Layer 2 -/

/-- Call 2 leaves the dense product of what it finds; it finds the previous layer's output and the weights as launched. -/
theorem product2 : W7 m ρ c (Proc.devRef .tc main_v50) = dense256 (features1 (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((region1 (V6 m ρ) c).trans (by
    show dense256 (W6 m ρ c (Proc.devRef .tc main_v49)) (W6 m ρ c (Proc.devRef .tc main_arg4)) = _
    rw [layer1 m ρ c, at6 m ρ c main_arg4 (by decide), at3 m ρ c main_arg4 (by decide)]))

/-- Layer 2's output: the stretch after the product reads the product, the edge lists and weights as first
    computed, and the bias as launched. -/
theorem layer2 : W9 m ρ c (Proc.devRef .tc main_v67) = features2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := hidden2 (F := Ideal) (W7 m ρ c)
  rw [product2 m ρ c, at7 m ρ c main_v3 (by decide), edgeSources m ρ c, at7 m ρ c main_v6 (by decide), edgeTargets m ρ c,
    at7 m ρ c main_v31 (by decide), edgeWeights m ρ c, at7 m ρ c main_arg5 (by decide), at3 m ρ c main_arg5 (by decide)] at h
  exact h

/-! ## Layer 3 -/

/-- Call 3 leaves the dense product of what it finds; it finds the previous layer's output and the weights as launched. -/
theorem product3 : W10 m ρ c (Proc.devRef .tc main_v68) = dense256 (features2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (W10_arr m ρ c 2).trans ((region2 (V9 m ρ) c).trans (by
    show dense256 (W9 m ρ c (Proc.devRef .tc main_v67)) (W9 m ρ c (Proc.devRef .tc main_arg6)) = _
    rw [layer2 m ρ c, at9 m ρ c main_arg6 (by decide), at3 m ρ c main_arg6 (by decide)]))

/-- Layer 3's output: the stretch after the product reads the product, the edge lists and weights as first
    computed, and the bias as launched. -/
theorem layer3 : W12 m ρ c (Proc.devRef .tc main_v85) = features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := hidden3 (F := Ideal) (W10 m ρ c)
  rw [product3 m ρ c, at10 m ρ c main_v3 (by decide), edgeSources m ρ c, at10 m ρ c main_v6 (by decide), edgeTargets m ρ c,
    at10 m ρ c main_v31 (by decide), edgeWeights m ρ c, at10 m ρ c main_arg7 (by decide), at3 m ρ c main_arg7 (by decide)] at h
  exact h

/-! ## Layer 4, the pooling and the log-softmax -/

/-- Call 4 leaves the dense product of what it finds; it finds the previous layer's output and the weights as launched. -/
theorem product4 : W13 m ρ c (Proc.devRef .tc main_v86) = dense128 (features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W13_arr m ρ c 2).trans ((region3 (V12 m ρ) c).trans (by
    show dense128 (W12 m ρ c (Proc.devRef .tc main_v85)) (W12 m ρ c (Proc.devRef .tc main_arg8)) = _
    rw [layer3 m ρ c, at12 m ρ c main_arg8 (by decide), at3 m ρ c main_arg8 (by decide)]))

/-- The pooled row, before the log-softmax's operations run. -/
theorem pooledBefore : W14 m ρ c (Proc.devRef .tc main_v104) = pooledOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := pooledRow (F := Ideal) (W13 m ρ c)
  rw [product4 m ρ c, at13 m ρ c main_v3 (by decide), edgeSources m ρ c, at13 m ρ c main_v6 (by decide), edgeTargets m ρ c,
    at13 m ρ c main_v31 (by decide), edgeWeights m ρ c, at13 m ρ c main_arg9 (by decide), at3 m ρ c main_arg9 (by decide)] at h
  exact h

/-- The first result. -/
theorem result0 : W15 m ρ c (Proc.devRef .tc main_v104) = pooledOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (pooledKept (F := Ideal) (W14 m ρ c)).trans (pooledBefore m ρ c)

/-- The second result. -/
theorem result1 : W15 m ρ c (Proc.devRef .tc main_v105) = logProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (logSoftmaxRow (F := Ideal) (W14 m ρ c)).trans (congrArg (logSoftmax (F := Ideal)) (pooledBefore m ρ c))

end Cert.KernelIdeal.Network

end
-- ==== Proof.RefRun.lean ====
/-
  The reference program's run. The reference is a straight line of 150 host operations: eleven stretches of
  elementwise, layout, gather and scatter operations, with one matrix product (a dot_general) after the third,
  fifth, seventh and ninth stretch. Run from any memory with zero counters, every weakly fair execution terminates
  and leaves each buffer at the fold of the operations' results over the launch contents; this module states that,
  and names the contents at the boundaries between stretches and products.
-/
import proofs.«154524_j43173011259684_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-! ## The operations, stretch by stretch -/

abbrev hostOps0 : List (HloOp τ sig (Elt F)) :=
  [ StableHlo.nullary main_v0 (iotaInDim S50000 32 0),
    StableHlo.unary main_arg1 main_v1 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v1 main_v2 rfl shapeCasts_S1x300000_S300000,
    StableHlo.binary main_v2 main_v0 main_v3 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    StableHlo.unary main_arg1 main_v4 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v4 main_v5 rfl shapeCasts_S1x300000_S300000,
    StableHlo.binary main_v5 main_v0 main_v6 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    StableHlo.nullary main_cst (constant S_ .f32 0x3F800000#32),
    StableHlo.unary main_cst main_v7 (broadcastInDim S350000 ![] bcast_S_S350000 : (⟨S_, .f32⟩ : BufTy).Contents (Elt F) → (⟨S350000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S350000x1 ![0] bcast_S350000_S350000x1_0 : (⟨S350000, .i32⟩ : BufTy).Contents (Elt F) → (⟨S350000x1, .i32⟩ : BufTy).Contents (Elt F)),
    StableHlo.ternary main_v8 main_v9 main_v7 main_v10 ((fun x i u => Host.scatterAdd scatter_S50000_S350000x1_S350000_n_0_0_1 x i u) : (⟨S50000, .f32⟩ : BufTy).Contents (Elt F) → (⟨S350000x1, .i32⟩ : BufTy).Contents (Elt F) → (⟨S350000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32) ]
theorem sub_hostOps0 : (hostOps0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
theorem fresh_hostOps0 : (hostOps0 : List (HloOp τ sig (Elt F))).Forall fun op => op.fresh = ∅ := by
  simp only [List.Forall]; repeat' constructor

abbrev hostOps0_1 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select ]
theorem sub_hostOps0_1 : (hostOps0_1 : List (HloOp τ sig (Elt F))).Forall fun op => op.bufs ⊆ StableHlo.tcRefs τ sig :=
  ⟨StableHlo.unary_bufs_sub .., StableHlo.unary_bufs_sub .., StableHlo.ternary_bufs_sub ..⟩
theorem fresh_hostOps0_1 : (hostOps0_1 : List (HloOp τ sig (Elt F))).Forall fun op => op.fresh = ∅ := by
  simp only [List.Forall]; repeat' constructor

abbrev hostOps0_2 : List (HloOp τ sig (Elt F)) :=
  [ StableHlo.nullary main_c (constantI S_ 32 0#32),
    StableHlo.unary main_c main_v17 (broadcastInDim S350000 ![] bcast_S_S350000 : (⟨S_, .i32⟩ : BufTy).Contents (Elt F) → (⟨S350000, .i32⟩ : BufTy).Contents (Elt F)),
    StableHlo.binary main_v3 main_v17 main_v18 (cmpi .slt : (⟨S350000, .i32⟩ : BufTy).Contents (Elt F) → (⟨S350000, .i32⟩ : BufTy).Contents (Elt F) → (⟨S350000, .i1⟩ : BufTy).Contents (Elt F)),
    StableHlo.nullary main_c_4 (constantI S_ 32 50000#32),
    StableHlo.unary main_c_4 main_v19 (broadcastInDim S350000 ![] bcast_S_S350000 : (⟨S_, .i32⟩ : BufTy).Contents (Elt F) → (⟨S350000, .i32⟩ : BufTy).Contents (Elt F)),
    StableHlo.binary main_v3 main_v19 main_v20 (addi : (⟨S350000, .i32⟩ : BufTy).Contents (Elt F) → (⟨S350000, .i32⟩ : BufTy).Contents (Elt F) → (⟨S350000, .i32⟩ : BufTy).Contents (Elt F)),
    StableHlo.ternary main_v18 main_v20 main_v3 main_v21 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v21 main_v22 (broadcastInDim S350000x1 ![0] bcast_S350000_S350000x1_0 : (⟨S350000, .i32⟩ : BufTy).Contents (Elt F) → (⟨S350000x1, .i32⟩ : BufTy).Contents (Elt F)),
    StableHlo.binary main_v16 main_v22 main_v23 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    StableHlo.nullary main_c_5 (constantI S_ 32 0#32),
    StableHlo.unary main_c_5 main_v24 (broadcastInDim S350000 ![] bcast_S_S350000 : (⟨S_, .i32⟩ : BufTy).Contents (Elt F) → (⟨S350000, .i32⟩ : BufTy).Contents (Elt F)),
    StableHlo.binary main_v6 main_v24 main_v25 (cmpi .slt : (⟨S350000, .i32⟩ : BufTy).Contents (Elt F) → (⟨S350000, .i32⟩ : BufTy).Contents (Elt F) → (⟨S350000, .i1⟩ : BufTy).Contents (Elt F)),
    StableHlo.nullary main_c_6 (constantI S_ 32 50000#32),
    StableHlo.unary main_c_6 main_v26 (broadcastInDim S350000 ![] bcast_S_S350000 : (⟨S_, .i32⟩ : BufTy).Contents (Elt F) → (⟨S350000, .i32⟩ : BufTy).Contents (Elt F)),
    StableHlo.binary main_v6 main_v26 main_v27 (addi : (⟨S350000, .i32⟩ : BufTy).Contents (Elt F) → (⟨S350000, .i32⟩ : BufTy).Contents (Elt F) → (⟨S350000, .i32⟩ : BufTy).Contents (Elt F)),
    StableHlo.ternary main_v25 main_v27 main_v6 main_v28 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v28 main_v29 (broadcastInDim S350000x1 ![0] bcast_S350000_S350000x1_0 : (⟨S350000, .i32⟩ : BufTy).Contents (Elt F) → (⟨S350000x1, .i32⟩ : BufTy).Contents (Elt F)),
    StableHlo.binary main_v16 main_v29 main_v30 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    StableHlo.binary main_v23 main_v30 main_v31 (mulf : (⟨S350000, .f32⟩ : BufTy).Contents (Elt F) → (⟨S350000, .f32⟩ : BufTy).Contents (Elt F) → (⟨S350000, .f32⟩ : BufTy).Contents (Elt F)) ]
theorem sub_hostOps0_2 : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem fresh_hostOps0_2 : (hostOps0_2 : List (HloOp τ sig (Elt F))).Forall fun op => op.fresh = ∅ := by
  simp only [List.Forall]; repeat' constructor

abbrev hostOps1 : List (HloOp τ sig (Elt F)) :=
  [ StableHlo.nullary main_c_7 (constantI S_ 32 0#32),
    StableHlo.unary main_c_7 main_v33 (broadcastInDim S350000 ![] bcast_S_S350000 : (⟨S_, .i32⟩ : BufTy).Contents (Elt F) → (⟨S350000, .i32⟩ : BufTy).Contents (Elt F)),
    StableHlo.binary main_v3 main_v33 main_v34 (cmpi .slt : (⟨S350000, .i32⟩ : BufTy).Contents (Elt F) → (⟨S350000, .i32⟩ : BufTy).Contents (Elt F) → (⟨S350000, .i1⟩ : BufTy).Contents (Elt F)),
    StableHlo.nullary main_c_8 (constantI S_ 32 50000#32),
    StableHlo.unary main_c_8 main_v35 (broadcastInDim S350000 ![] bcast_S_S350000 : (⟨S_, .i32⟩ : BufTy).Contents (Elt F) → (⟨S350000, .i32⟩ : BufTy).Contents (Elt F)),
    StableHlo.binary main_v3 main_v35 main_v36 (addi : (⟨S350000, .i32⟩ : BufTy).Contents (Elt F) → (⟨S350000, .i32⟩ : BufTy).Contents (Elt F) → (⟨S350000, .i32⟩ : BufTy).Contents (Elt F)),
    StableHlo.ternary main_v34 main_v36 main_v3 main_v37 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v37 main_v38 (broadcastInDim S350000x1 ![0] bcast_S350000_S350000x1_0 : (⟨S350000, .i32⟩ : BufTy).Contents (Elt F) → (⟨S350000x1, .i32⟩ : BufTy).Contents (Elt F)),
    StableHlo.binary main_v32 main_v38 main_v39 ((fun x i => Host.gather gather_S50000x256_S350000x1_S350000x256_1_0_n_n_0_1_1256 x i) : (⟨S50000x256, .f32⟩ : BufTy).Contents (Elt F) → (⟨S350000x1, .i32⟩ : BufTy).Contents (Elt F) → (⟨S350000x256, .f32⟩ : BufTy).Contents (Elt F)),
    StableHlo.unary main_v31 main_v40 (broadcastInDim S350000x1 ![0] bcast_S350000_S350000x1_0 : (⟨S350000, .f32⟩ : BufTy).Contents (Elt F) → (⟨S350000x1, .f32⟩ : BufTy).Contents (Elt F)),
    StableHlo.unary main_v40 main_v41 (broadcastInDim S350000x256 ![0, 1] bcast_S350000x1_S350000x256_0_1 : (⟨S350000x1, .f32⟩ : BufTy).Contents (Elt F) → (⟨S350000x256, .f32⟩ : BufTy).Contents (Elt F)),
    StableHlo.binary main_v39 main_v41 main_v42 (mulf : (⟨S350000x256, .f32⟩ : BufTy).Contents (Elt F) → (⟨S350000x256, .f32⟩ : BufTy).Contents (Elt F) → (⟨S350000x256, .f32⟩ : BufTy).Contents (Elt F)),
    StableHlo.nullary main_cst_9 (constant S_ .f32 0x00000000#32),
    StableHlo.unary main_cst_9 main_v43 (broadcastInDim S50000x256 ![] bcast_S_S50000x256 : (⟨S_, .f32⟩ : BufTy).Contents (Elt F) → (⟨S50000x256, .f32⟩ : BufTy).Contents (Elt F)),
    StableHlo.unary main_v6 main_v44 (broadcastInDim S350000x1 ![0] bcast_S350000_S350000x1_0 : (⟨S350000, .i32⟩ : BufTy).Contents (Elt F) → (⟨S350000x1, .i32⟩ : BufTy).Contents (Elt F)),
    StableHlo.ternary main_v43 main_v44 main_v42 main_v45 ((fun x i u => Host.scatterAdd scatter_S50000x256_S350000x1_S350000x256_1_0_0_1 x i u) : (⟨S50000x256, .f32⟩ : BufTy).Contents (Elt F) → (⟨S350000x1, .i32⟩ : BufTy).Contents (Elt F) → (⟨S350000x256, .f32⟩ : BufTy).Contents (Elt F) → (⟨S50000x256, .f32⟩ : BufTy).Contents (Elt F)),
    StableHlo.unary main_arg3 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v47 main_v48 (addf : (⟨S50000x256, .f32⟩ : BufTy).Contents (Elt F) → (⟨S50000x256, .f32⟩ : BufTy).Contents (Elt F) → (⟨S50000x256, .f32⟩ : BufTy).Contents (Elt F)) ]
theorem sub_hostOps1 : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem fresh_hostOps1 : (hostOps1 : List (HloOp τ sig (Elt F))).Forall fun op => op.fresh = ∅ := by
  simp only [List.Forall]; repeat' constructor

abbrev hostOps1_1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v48 : StableHlo.TRef sig ⟨S50000x256, .f32⟩) (.of main_call1_v0 : StableHlo.TRef sig ⟨S50000x256, .f32⟩) (.of main_v49 : StableHlo.TRef sig ⟨S50000x256, .f32⟩) maximumf ]
theorem sub_hostOps1_1 : (hostOps1_1 : List (HloOp τ sig (Elt F))).Forall fun op => op.bufs ⊆ StableHlo.tcRefs τ sig :=
  ⟨StableHlo.nullary_bufs_sub .., StableHlo.unary_bufs_sub .., StableHlo.binary_bufs_sub ..⟩
theorem fresh_hostOps1_1 : (hostOps1_1 : List (HloOp τ sig (Elt F))).Forall fun op => op.fresh = ∅ := by
  simp only [List.Forall]; repeat' constructor

abbrev hostOps2 : List (HloOp τ sig (Elt F)) :=
  [ StableHlo.nullary main_c_10 (constantI S_ 32 0#32),
    StableHlo.unary main_c_10 main_v51 (broadcastInDim S350000 ![] bcast_S_S350000 : (⟨S_, .i32⟩ : BufTy).Contents (Elt F) → (⟨S350000, .i32⟩ : BufTy).Contents (Elt F)),
    StableHlo.binary main_v3 main_v51 main_v52 (cmpi .slt : (⟨S350000, .i32⟩ : BufTy).Contents (Elt F) → (⟨S350000, .i32⟩ : BufTy).Contents (Elt F) → (⟨S350000, .i1⟩ : BufTy).Contents (Elt F)),
    StableHlo.nullary main_c_11 (constantI S_ 32 50000#32),
    StableHlo.unary main_c_11 main_v53 (broadcastInDim S350000 ![] bcast_S_S350000 : (⟨S_, .i32⟩ : BufTy).Contents (Elt F) → (⟨S350000, .i32⟩ : BufTy).Contents (Elt F)),
    StableHlo.binary main_v3 main_v53 main_v54 (addi : (⟨S350000, .i32⟩ : BufTy).Contents (Elt F) → (⟨S350000, .i32⟩ : BufTy).Contents (Elt F) → (⟨S350000, .i32⟩ : BufTy).Contents (Elt F)),
    StableHlo.ternary main_v52 main_v54 main_v3 main_v55 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v55 main_v56 (broadcastInDim S350000x1 ![0] bcast_S350000_S350000x1_0 : (⟨S350000, .i32⟩ : BufTy).Contents (Elt F) → (⟨S350000x1, .i32⟩ : BufTy).Contents (Elt F)),
    StableHlo.binary main_v50 main_v56 main_v57 ((fun x i => Host.gather gather_S50000x256_S350000x1_S350000x256_1_0_n_n_0_1_1256 x i) : (⟨S50000x256, .f32⟩ : BufTy).Contents (Elt F) → (⟨S350000x1, .i32⟩ : BufTy).Contents (Elt F) → (⟨S350000x256, .f32⟩ : BufTy).Contents (Elt F)),
    StableHlo.unary main_v31 main_v58 (broadcastInDim S350000x1 ![0] bcast_S350000_S350000x1_0 : (⟨S350000, .f32⟩ : BufTy).Contents (Elt F) → (⟨S350000x1, .f32⟩ : BufTy).Contents (Elt F)),
    StableHlo.unary main_v58 main_v59 (broadcastInDim S350000x256 ![0, 1] bcast_S350000x1_S350000x256_0_1 : (⟨S350000x1, .f32⟩ : BufTy).Contents (Elt F) → (⟨S350000x256, .f32⟩ : BufTy).Contents (Elt F)),
    StableHlo.binary main_v57 main_v59 main_v60 (mulf : (⟨S350000x256, .f32⟩ : BufTy).Contents (Elt F) → (⟨S350000x256, .f32⟩ : BufTy).Contents (Elt F) → (⟨S350000x256, .f32⟩ : BufTy).Contents (Elt F)),
    StableHlo.nullary main_cst_12 (constant S_ .f32 0x00000000#32),
    StableHlo.unary main_cst_12 main_v61 (broadcastInDim S50000x256 ![] bcast_S_S50000x256 : (⟨S_, .f32⟩ : BufTy).Contents (Elt F) → (⟨S50000x256, .f32⟩ : BufTy).Contents (Elt F)),
    StableHlo.unary main_v6 main_v62 (broadcastInDim S350000x1 ![0] bcast_S350000_S350000x1_0 : (⟨S350000, .i32⟩ : BufTy).Contents (Elt F) → (⟨S350000x1, .i32⟩ : BufTy).Contents (Elt F)),
    StableHlo.ternary main_v61 main_v62 main_v60 main_v63 ((fun x i u => Host.scatterAdd scatter_S50000x256_S350000x1_S350000x256_1_0_0_1 x i u) : (⟨S50000x256, .f32⟩ : BufTy).Contents (Elt F) → (⟨S350000x1, .i32⟩ : BufTy).Contents (Elt F) → (⟨S350000x256, .f32⟩ : BufTy).Contents (Elt F) → (⟨S50000x256, .f32⟩ : BufTy).Contents (Elt F)),
    StableHlo.unary main_arg5 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v65 main_v66 (addf : (⟨S50000x256, .f32⟩ : BufTy).Contents (Elt F) → (⟨S50000x256, .f32⟩ : BufTy).Contents (Elt F) → (⟨S50000x256, .f32⟩ : BufTy).Contents (Elt F)) ]
theorem sub_hostOps2 : (hostOps2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem fresh_hostOps2 : (hostOps2 : List (HloOp τ sig (Elt F))).Forall fun op => op.fresh = ∅ := by
  simp only [List.Forall]; repeat' constructor

abbrev hostOps2_1 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v66 : StableHlo.TRef sig ⟨S50000x256, .f32⟩) (.of main_call2_v0 : StableHlo.TRef sig ⟨S50000x256, .f32⟩) (.of main_v67 : StableHlo.TRef sig ⟨S50000x256, .f32⟩) maximumf ]
theorem sub_hostOps2_1 : (hostOps2_1 : List (HloOp τ sig (Elt F))).Forall fun op => op.bufs ⊆ StableHlo.tcRefs τ sig :=
  ⟨StableHlo.nullary_bufs_sub .., StableHlo.unary_bufs_sub .., StableHlo.binary_bufs_sub ..⟩
theorem fresh_hostOps2_1 : (hostOps2_1 : List (HloOp τ sig (Elt F))).Forall fun op => op.fresh = ∅ := by
  simp only [List.Forall]; repeat' constructor

abbrev hostOps3 : List (HloOp τ sig (Elt F)) :=
  [ StableHlo.nullary main_c_13 (constantI S_ 32 0#32),
    StableHlo.unary main_c_13 main_v69 (broadcastInDim S350000 ![] bcast_S_S350000 : (⟨S_, .i32⟩ : BufTy).Contents (Elt F) → (⟨S350000, .i32⟩ : BufTy).Contents (Elt F)),
    StableHlo.binary main_v3 main_v69 main_v70 (cmpi .slt : (⟨S350000, .i32⟩ : BufTy).Contents (Elt F) → (⟨S350000, .i32⟩ : BufTy).Contents (Elt F) → (⟨S350000, .i1⟩ : BufTy).Contents (Elt F)),
    StableHlo.nullary main_c_14 (constantI S_ 32 50000#32),
    StableHlo.unary main_c_14 main_v71 (broadcastInDim S350000 ![] bcast_S_S350000 : (⟨S_, .i32⟩ : BufTy).Contents (Elt F) → (⟨S350000, .i32⟩ : BufTy).Contents (Elt F)),
    StableHlo.binary main_v3 main_v71 main_v72 (addi : (⟨S350000, .i32⟩ : BufTy).Contents (Elt F) → (⟨S350000, .i32⟩ : BufTy).Contents (Elt F) → (⟨S350000, .i32⟩ : BufTy).Contents (Elt F)),
    StableHlo.ternary main_v70 main_v72 main_v3 main_v73 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v73 main_v74 (broadcastInDim S350000x1 ![0] bcast_S350000_S350000x1_0 : (⟨S350000, .i32⟩ : BufTy).Contents (Elt F) → (⟨S350000x1, .i32⟩ : BufTy).Contents (Elt F)),
    StableHlo.binary main_v68 main_v74 main_v75 ((fun x i => Host.gather gather_S50000x256_S350000x1_S350000x256_1_0_n_n_0_1_1256 x i) : (⟨S50000x256, .f32⟩ : BufTy).Contents (Elt F) → (⟨S350000x1, .i32⟩ : BufTy).Contents (Elt F) → (⟨S350000x256, .f32⟩ : BufTy).Contents (Elt F)),
    StableHlo.unary main_v31 main_v76 (broadcastInDim S350000x1 ![0] bcast_S350000_S350000x1_0 : (⟨S350000, .f32⟩ : BufTy).Contents (Elt F) → (⟨S350000x1, .f32⟩ : BufTy).Contents (Elt F)),
    StableHlo.unary main_v76 main_v77 (broadcastInDim S350000x256 ![0, 1] bcast_S350000x1_S350000x256_0_1 : (⟨S350000x1, .f32⟩ : BufTy).Contents (Elt F) → (⟨S350000x256, .f32⟩ : BufTy).Contents (Elt F)),
    StableHlo.binary main_v75 main_v77 main_v78 (mulf : (⟨S350000x256, .f32⟩ : BufTy).Contents (Elt F) → (⟨S350000x256, .f32⟩ : BufTy).Contents (Elt F) → (⟨S350000x256, .f32⟩ : BufTy).Contents (Elt F)),
    StableHlo.nullary main_cst_15 (constant S_ .f32 0x00000000#32),
    StableHlo.unary main_cst_15 main_v79 (broadcastInDim S50000x256 ![] bcast_S_S50000x256 : (⟨S_, .f32⟩ : BufTy).Contents (Elt F) → (⟨S50000x256, .f32⟩ : BufTy).Contents (Elt F)),
    StableHlo.unary main_v6 main_v80 (broadcastInDim S350000x1 ![0] bcast_S350000_S350000x1_0 : (⟨S350000, .i32⟩ : BufTy).Contents (Elt F) → (⟨S350000x1, .i32⟩ : BufTy).Contents (Elt F)),
    StableHlo.ternary main_v79 main_v80 main_v78 main_v81 ((fun x i u => Host.scatterAdd scatter_S50000x256_S350000x1_S350000x256_1_0_0_1 x i u) : (⟨S50000x256, .f32⟩ : BufTy).Contents (Elt F) → (⟨S350000x1, .i32⟩ : BufTy).Contents (Elt F) → (⟨S350000x256, .f32⟩ : BufTy).Contents (Elt F) → (⟨S50000x256, .f32⟩ : BufTy).Contents (Elt F)),
    StableHlo.unary main_arg7 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v83 main_v84 (addf : (⟨S50000x256, .f32⟩ : BufTy).Contents (Elt F) → (⟨S50000x256, .f32⟩ : BufTy).Contents (Elt F) → (⟨S50000x256, .f32⟩ : BufTy).Contents (Elt F)) ]
theorem sub_hostOps3 : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem fresh_hostOps3 : (hostOps3 : List (HloOp τ sig (Elt F))).Forall fun op => op.fresh = ∅ := by
  simp only [List.Forall]; repeat' constructor

abbrev hostOps3_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x256, .f32⟩) (broadcastInDim S50000x256 ![] bcast_S_S50000x256),
    StableHlo.TRef.binary (.of main_v84 : StableHlo.TRef sig ⟨S50000x256, .f32⟩) (.of main_call3_v0 : StableHlo.TRef sig ⟨S50000x256, .f32⟩) (.of main_v85 : StableHlo.TRef sig ⟨S50000x256, .f32⟩) maximumf ]
theorem sub_hostOps3_1 : (hostOps3_1 : List (HloOp τ sig (Elt F))).Forall fun op => op.bufs ⊆ StableHlo.tcRefs τ sig :=
  ⟨StableHlo.nullary_bufs_sub .., StableHlo.unary_bufs_sub .., StableHlo.binary_bufs_sub ..⟩
theorem fresh_hostOps3_1 : (hostOps3_1 : List (HloOp τ sig (Elt F))).Forall fun op => op.fresh = ∅ := by
  simp only [List.Forall]; repeat' constructor

abbrev hostOps4 : List (HloOp τ sig (Elt F)) :=
  [ StableHlo.nullary main_c_16 (constantI S_ 32 0#32),
    StableHlo.unary main_c_16 main_v87 (broadcastInDim S350000 ![] bcast_S_S350000 : (⟨S_, .i32⟩ : BufTy).Contents (Elt F) → (⟨S350000, .i32⟩ : BufTy).Contents (Elt F)),
    StableHlo.binary main_v3 main_v87 main_v88 (cmpi .slt : (⟨S350000, .i32⟩ : BufTy).Contents (Elt F) → (⟨S350000, .i32⟩ : BufTy).Contents (Elt F) → (⟨S350000, .i1⟩ : BufTy).Contents (Elt F)),
    StableHlo.nullary main_c_17 (constantI S_ 32 50000#32),
    StableHlo.unary main_c_17 main_v89 (broadcastInDim S350000 ![] bcast_S_S350000 : (⟨S_, .i32⟩ : BufTy).Contents (Elt F) → (⟨S350000, .i32⟩ : BufTy).Contents (Elt F)),
    StableHlo.binary main_v3 main_v89 main_v90 (addi : (⟨S350000, .i32⟩ : BufTy).Contents (Elt F) → (⟨S350000, .i32⟩ : BufTy).Contents (Elt F) → (⟨S350000, .i32⟩ : BufTy).Contents (Elt F)),
    StableHlo.ternary main_v88 main_v90 main_v3 main_v91 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    StableHlo.unary main_v91 main_v92 (broadcastInDim S350000x1 ![0] bcast_S350000_S350000x1_0 : (⟨S350000, .i32⟩ : BufTy).Contents (Elt F) → (⟨S350000x1, .i32⟩ : BufTy).Contents (Elt F)),
    StableHlo.binary main_v86 main_v92 main_v93 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)),
    StableHlo.unary main_v31 main_v94 (broadcastInDim S350000x1 ![0] bcast_S350000_S350000x1_0 : (⟨S350000, .f32⟩ : BufTy).Contents (Elt F) → (⟨S350000x1, .f32⟩ : BufTy).Contents (Elt F)),
    StableHlo.unary main_v94 main_v95 (broadcastInDim S350000x128 ![0, 1] bcast_S350000x1_S350000x128_0_1 : (⟨S350000x1, .f32⟩ : BufTy).Contents (Elt F) → (⟨S350000x128, .f32⟩ : BufTy).Contents (Elt F)),
    StableHlo.binary main_v93 main_v95 main_v96 (mulf : (⟨S350000x128, .f32⟩ : BufTy).Contents (Elt F) → (⟨S350000x128, .f32⟩ : BufTy).Contents (Elt F) → (⟨S350000x128, .f32⟩ : BufTy).Contents (Elt F)),
    StableHlo.nullary main_cst_18 (constant S_ .f32 0x00000000#32),
    StableHlo.unary main_cst_18 main_v97 (broadcastInDim S50000x128 ![] bcast_S_S50000x128 : (⟨S_, .f32⟩ : BufTy).Contents (Elt F) → (⟨S50000x128, .f32⟩ : BufTy).Contents (Elt F)),
    StableHlo.unary main_v6 main_v98 (broadcastInDim S350000x1 ![0] bcast_S350000_S350000x1_0 : (⟨S350000, .i32⟩ : BufTy).Contents (Elt F) → (⟨S350000x1, .i32⟩ : BufTy).Contents (Elt F)),
    StableHlo.ternary main_v97 main_v98 main_v96 main_v99 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x00000000#32),
    StableHlo.binary main_v102 main_cst_19 main_v103 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v103 main_v104 (broadcastInDim S1x128 ![1] bcast_S128_S1x128_1 : (⟨S128, .f32⟩ : BufTy).Contents (Elt F) → (⟨S1x128, .f32⟩ : BufTy).Contents (Elt F)) ]
theorem sub_hostOps4 : (hostOps4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.unary_bufs_sub ..⟩
theorem fresh_hostOps4 : (hostOps4 : List (HloOp τ sig (Elt F))).Forall fun op => op.fresh = ∅ := by
  simp only [List.Forall]; repeat' constructor

abbrev hostOps4_1 : List (HloOp τ sig (Elt F)) :=
  [ StableHlo.TRef.nullary (.of main_call4_cst : StableHlo.TRef sig ⟨S_, .f32⟩) (constant S_ .f32 0xFF800000#32),
    StableHlo.TRef.binary (.of main_v104 : StableHlo.TRef sig ⟨S1x128, .f32⟩) (.of main_call4_cst : StableHlo.TRef sig ⟨S_, .f32⟩) (.of main_call4_v0 : StableHlo.TRef sig ⟨S1, .f32⟩) (fun x v => Host.reduce FloatOps.maximumf x v reducesTo_S1x128_S1_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S1, .f32⟩) (broadcastInDim S1 ![] bcast_S_S1),
    StableHlo.TRef.binary (.of main_call4_v1 : StableHlo.TRef sig ⟨S1, .f32⟩) (.of main_call4_v0 : StableHlo.TRef sig ⟨S1, .f32⟩) (.of main_call4_v2 : StableHlo.TRef sig ⟨S1, .f32⟩) maximumf,
    StableHlo.TRef.unary (.of main_call4_v2 : StableHlo.TRef sig ⟨S1, .f32⟩) (.of main_call4_v3 : StableHlo.TRef sig ⟨S1x1, .f32⟩) (broadcastInDim S1x1 ![0] bcast_S1_S1x1_0),
    StableHlo.TRef.unary (.of main_call4_v3 : StableHlo.TRef sig ⟨S1x1, .f32⟩) (.of main_call4_v4 : StableHlo.TRef sig ⟨S1x128, .f32⟩) (broadcastInDim S1x128 ![0, 1] bcast_S1x1_S1x128_0_1),
    StableHlo.TRef.binary (.of main_v104 : StableHlo.TRef sig ⟨S1x128, .f32⟩) (.of main_call4_v4 : StableHlo.TRef sig ⟨S1x128, .f32⟩) (.of main_call4_v5 : StableHlo.TRef sig ⟨S1x128, .f32⟩) subf,
    StableHlo.TRef.unary (.of main_call4_v5 : StableHlo.TRef sig ⟨S1x128, .f32⟩) (.of main_call4_v6 : StableHlo.TRef sig ⟨S1x128, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S1x128, .f32⟩) (.of main_call4_cst_1 : StableHlo.TRef sig ⟨S_, .f32⟩) (.of main_call4_v7 : StableHlo.TRef sig ⟨S1, .f32⟩) (fun x v => Host.reduceAdd x v reducesTo_S1x128_S1_d1 h_S_),
    StableHlo.TRef.unary (.of main_call4_v7 : StableHlo.TRef sig ⟨S1, .f32⟩) (.of main_call4_v8 : StableHlo.TRef sig ⟨S1x1, .f32⟩) (broadcastInDim S1x1 ![0] bcast_S1_S1x1_0),
    StableHlo.TRef.unary (.of main_call4_v8 : StableHlo.TRef sig ⟨S1x1, .f32⟩) (.of main_call4_v9 : StableHlo.TRef sig ⟨S1x1, .f32⟩) Host.log,
    StableHlo.TRef.unary (.of main_call4_v9 : StableHlo.TRef sig ⟨S1x1, .f32⟩) (.of main_call4_v10 : StableHlo.TRef sig ⟨S1x128, .f32⟩) (broadcastInDim S1x128 ![0, 1] bcast_S1x1_S1x128_0_1),
    StableHlo.TRef.binary (.of main_call4_v5 : StableHlo.TRef sig ⟨S1x128, .f32⟩) (.of main_call4_v10 : StableHlo.TRef sig ⟨S1x128, .f32⟩) (.of main_v105 : StableHlo.TRef sig ⟨S1x128, .f32⟩) subf ]
theorem sub_hostOps4_1 : (hostOps4_1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem fresh_hostOps4_1 : (hostOps4_1 : List (HloOp τ sig (Elt F))).Forall fun op => op.fresh = ∅ := by
  simp only [List.Forall]; repeat' constructor

/-- Layer 1's matrix product. -/
abbrev dot1 : HloOp τ sig (Elt F) :=
  StableHlo.binary main_arg0 main_arg2 main_v32 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))

/-- Layer 2's matrix product. -/
abbrev dot2 : HloOp τ sig (Elt F) :=
  StableHlo.binary main_v49 main_arg4 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))

/-- Layer 3's matrix product. -/
abbrev dot3 : HloOp τ sig (Elt F) :=
  StableHlo.binary main_v67 main_arg6 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))

/-- Layer 4's matrix product. -/
abbrev dot4 : HloOp τ sig (Elt F) :=
  StableHlo.binary main_v85 main_arg8 main_v86 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))

/-- The whole program, in order. -/
abbrev ops : List (HloOp τ sig (Elt F)) :=
  hostOps0 ++ (hostOps0_1 ++ (hostOps0_2 ++ (dot1 :: (hostOps1 ++ (hostOps1_1 ++ (dot2 :: (hostOps2 ++ (hostOps2_1 ++
    (dot3 :: (hostOps3 ++ (hostOps3_1 ++ (dot4 :: (hostOps4 ++ hostOps4_1)))))))))))))

set_option maxRecDepth 8192 in
set_option maxHeartbeats 4000000 in
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

section Pieces
variable {α : Type} {p : α → Prop}
theorem forall_app {l₁ l₂ : List α} (h₁ : l₁.Forall p) (h₂ : l₂.Forall p) : (l₁ ++ l₂).Forall p :=
  List.forall_append.mpr ⟨h₁, h₂⟩
theorem forall_push {a : α} {l : List α} (h₁ : p a) (h₂ : l.Forall p) : (a :: l).Forall p :=
  (List.forall_cons p a l).mpr ⟨h₁, h₂⟩
end Pieces

theorem ops_sub : (ops : List (HloOp τ sig (Elt F))).Forall fun op => op.bufs ⊆ StableHlo.tcRefs τ sig :=
  forall_app sub_hostOps0 (forall_app sub_hostOps0_1 (forall_app sub_hostOps0_2 (forall_push (StableHlo.binary_bufs_sub ..)
    (forall_app sub_hostOps1 (forall_app sub_hostOps1_1 (forall_push (StableHlo.binary_bufs_sub ..)
      (forall_app sub_hostOps2 (forall_app sub_hostOps2_1 (forall_push (StableHlo.binary_bufs_sub ..)
        (forall_app sub_hostOps3 (forall_app sub_hostOps3_1 (forall_push (StableHlo.binary_bufs_sub ..)
          (forall_app sub_hostOps4 sub_hostOps4_1)))))))))))))

theorem ops_fresh : (ops : List (HloOp τ sig (Elt F))).Forall fun op => op.fresh = ∅ :=
  forall_app fresh_hostOps0 (forall_app fresh_hostOps0_1 (forall_app fresh_hostOps0_2 (forall_push rfl
    (forall_app fresh_hostOps1 (forall_app fresh_hostOps1_1 (forall_push rfl
      (forall_app fresh_hostOps2 (forall_app fresh_hostOps2_1 (forall_push rfl
        (forall_app fresh_hostOps3 (forall_app fresh_hostOps3_1 (forall_push rfl
          (forall_app fresh_hostOps4 fresh_hostOps4_1)))))))))))))

/-! ## The contents at the boundaries -/

variable (m : (ℓ : Loc nD τ sig) → Buf (Elt F) ℓ)

/-- Core `c`'s buffers at launch. -/
abbrev R0 (c : Dev nD) : Valuation τ sig (Elt F) := StableHlo.launchContents m c
/-- After the edge lists and edge weights are computed. -/
abbrev R3 (c : Dev nD) : Valuation τ sig (Elt F) := StableHlo.after hostOps0_2 (StableHlo.after hostOps0_1 (StableHlo.after hostOps0 (R0 m c)))
/-- After layer 1's product. -/
abbrev R4 (c : Dev nD) : Valuation τ sig (Elt F) := (dot1 (F := F)).result (R3 m c)
abbrev R6 (c : Dev nD) : Valuation τ sig (Elt F) := StableHlo.after hostOps1_1 (StableHlo.after hostOps1 (R4 m c))
abbrev R7 (c : Dev nD) : Valuation τ sig (Elt F) := (dot2 (F := F)).result (R6 m c)
abbrev R9 (c : Dev nD) : Valuation τ sig (Elt F) := StableHlo.after hostOps2_1 (StableHlo.after hostOps2 (R7 m c))
abbrev R10 (c : Dev nD) : Valuation τ sig (Elt F) := (dot3 (F := F)).result (R9 m c)
abbrev R12 (c : Dev nD) : Valuation τ sig (Elt F) := StableHlo.after hostOps3_1 (StableHlo.after hostOps3 (R10 m c))
abbrev R13 (c : Dev nD) : Valuation τ sig (Elt F) := (dot4 (F := F)).result (R12 m c)
abbrev R14 (c : Dev nD) : Valuation τ sig (Elt F) := StableHlo.after hostOps4 (R13 m c)
/-- At the return. -/
abbrev R15 (c : Dev nD) : Valuation τ sig (Elt F) := StableHlo.after hostOps4_1 (R14 m c)

/-- The fold over the whole program is the fold stretch by stretch. -/
theorem after_ops (c : Dev nD) : StableHlo.after ops (R0 m c) = R15 m c := rfl

/-- Every weakly fair execution terminates, and every buffer ends at the contents at the return. -/
theorem run_final (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R15 m c (Proc.devRef .tc b) :=
  (θ_run defs _ _).mono (fun _ h c b => (h c b).trans (congrFun (after_ops m c) _))
    (StableHlo.run_seq scopedRefs_eq scopedSems_eq defs main (fun _ => ops) main_eq (fun _ => ops_sub) m ρ
      (fun _ => List.forall_iff_forall_mem.mp ops_fresh))

end Cert.ReferenceIdeal.HostRun

end
-- ==== Proof.RefCarried.lean ====
/-
  The reference's buffers that are computed once and read by every layer: the two edge lists, the edge weights, and the
  arguments. A stretch of host operations changes only the buffers its operations write, and a matrix product only its
  result. So a buffer that none of them writes holds, at every later boundary, what it held when the first product was
  reached; and an argument holds there what the program was launched with.
-/
import proofs.«154524_j43173011259684_1_alg».proof.Proof.RefRun

noncomputable section

namespace Cert.ReferenceIdeal.Carried

open Cert.ReferenceIdeal Cert.ReferenceIdeal.HostRun Idealize.ShloMosaic Idealize.ShloMosaic.TcCoe Idealize.SL.Sem

variable {F : FTy → Type} [FloatOps F]

/-! ## What each stretch writes -/

/-- The buffers `hostOps0` writes, in order. -/
abbrev wr_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes_hostOps0 : (hostOps0 : List (HloOp τ sig (Elt F))).Forall fun op => op.writes ⊆ (wr_hostOps0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps0_1` writes, in order. -/
abbrev wr_hostOps0_1 : List (Ref sig .tc) := [main_call0_v0, main_call0_v1, main_v16]
theorem writes_hostOps0_1 : (hostOps0_1 : List (HloOp τ sig (Elt F))).Forall fun op => op.writes ⊆ (wr_hostOps0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps0_2` writes, in order. -/
abbrev wr_hostOps0_2 : List (Ref sig .tc) := [main_c, main_v17, main_v18, main_c_4, main_v19, main_v20, main_v21, main_v22, main_v23, main_c_5, main_v24, main_v25, main_c_6, main_v26, main_v27, main_v28, main_v29, main_v30, main_v31]
theorem writes_hostOps0_2 : (hostOps0_2 : List (HloOp τ sig (Elt F))).Forall fun op => op.writes ⊆ (wr_hostOps0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps1` writes, in order. -/
abbrev wr_hostOps1 : List (Ref sig .tc) := [main_c_7, main_v33, main_v34, main_c_8, main_v35, main_v36, main_v37, main_v38, main_v39, main_v40, main_v41, main_v42, main_cst_9, main_v43, main_v44, main_v45, main_v46, main_v47, main_v48]
theorem writes_hostOps1 : (hostOps1 : List (HloOp τ sig (Elt F))).Forall fun op => op.writes ⊆ (wr_hostOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps1_1` writes, in order. -/
abbrev wr_hostOps1_1 : List (Ref sig .tc) := [main_call1_cst, main_call1_v0, main_v49]
theorem writes_hostOps1_1 : (hostOps1_1 : List (HloOp τ sig (Elt F))).Forall fun op => op.writes ⊆ (wr_hostOps1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps2` writes, in order. -/
abbrev wr_hostOps2 : List (Ref sig .tc) := [main_c_10, main_v51, main_v52, main_c_11, main_v53, main_v54, main_v55, main_v56, main_v57, main_v58, main_v59, main_v60, main_cst_12, main_v61, main_v62, main_v63, main_v64, main_v65, main_v66]
theorem writes_hostOps2 : (hostOps2 : List (HloOp τ sig (Elt F))).Forall fun op => op.writes ⊆ (wr_hostOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps2_1` writes, in order. -/
abbrev wr_hostOps2_1 : List (Ref sig .tc) := [main_call2_cst, main_call2_v0, main_v67]
theorem writes_hostOps2_1 : (hostOps2_1 : List (HloOp τ sig (Elt F))).Forall fun op => op.writes ⊆ (wr_hostOps2_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps3` writes, in order. -/
abbrev wr_hostOps3 : List (Ref sig .tc) := [main_c_13, main_v69, main_v70, main_c_14, main_v71, main_v72, main_v73, main_v74, main_v75, main_v76, main_v77, main_v78, main_cst_15, main_v79, main_v80, main_v81, main_v82, main_v83, main_v84]
theorem writes_hostOps3 : (hostOps3 : List (HloOp τ sig (Elt F))).Forall fun op => op.writes ⊆ (wr_hostOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps3_1` writes, in order. -/
abbrev wr_hostOps3_1 : List (Ref sig .tc) := [main_call3_cst, main_call3_v0, main_v85]
theorem writes_hostOps3_1 : (hostOps3_1 : List (HloOp τ sig (Elt F))).Forall fun op => op.writes ⊆ (wr_hostOps3_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps4` writes, in order. -/
abbrev wr_hostOps4 : List (Ref sig .tc) := [main_c_16, main_v87, main_v88, main_c_17, main_v89, main_v90, main_v91, main_v92, main_v93, main_v94, main_v95, main_v96, main_cst_18, main_v97, main_v98, main_v99, main_v100, main_v101, main_v102, main_cst_19, main_v103, main_v104]
theorem writes_hostOps4 : (hostOps4 : List (HloOp τ sig (Elt F))).Forall fun op => op.writes ⊆ (wr_hostOps4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers `hostOps4_1` writes, in order. -/
abbrev wr_hostOps4_1 : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v105]
theorem writes_hostOps4_1 : (hostOps4_1 : List (HloOp τ sig (Elt F))).Forall fun op => op.writes ⊆ (wr_hostOps4_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-! ## Untouched up to a boundary -/

/-- Not written before the first product. -/
abbrev Free3 (r : Ref sig .tc) : Prop := r ∉ wr_hostOps0 ∧ r ∉ wr_hostOps0_1 ∧ r ∉ wr_hostOps0_2
/-- Not the first product's result. -/
abbrev Free4 (r : Ref sig .tc) : Prop := r ≠ main_v32
abbrev Free6 (r : Ref sig .tc) : Prop := Free4 r ∧ r ∉ wr_hostOps1 ∧ r ∉ wr_hostOps1_1
abbrev Free7 (r : Ref sig .tc) : Prop := Free6 r ∧ r ≠ main_v50
abbrev Free9 (r : Ref sig .tc) : Prop := Free7 r ∧ r ∉ wr_hostOps2 ∧ r ∉ wr_hostOps2_1
abbrev Free10 (r : Ref sig .tc) : Prop := Free9 r ∧ r ≠ main_v68
abbrev Free12 (r : Ref sig .tc) : Prop := Free10 r ∧ r ∉ wr_hostOps3 ∧ r ∉ wr_hostOps3_1
abbrev Free13 (r : Ref sig .tc) : Prop := Free12 r ∧ r ≠ main_v86

variable (m : (ℓ : Loc nD τ sig) → Buf (Elt F) ℓ)

/-- A buffer the first stretches do not write is, at the first product, as launched. -/
theorem at3 (c : Dev nD) (r : Ref sig .tc) (h : Free3 r) :
    R3 m c (Proc.devRef .tc r) = m ((c : Thread nD τ).loc r) :=
  (StableHlo.after_of_writes_sub hostOps0_2 _ writes_hostOps0_2 h.2.2).trans
    ((StableHlo.after_of_writes_sub hostOps0_1 _ writes_hostOps0_1 h.2.1).trans
      ((StableHlo.after_of_writes_sub hostOps0 _ writes_hostOps0 h.1).trans rfl))

theorem at4 (c : Dev nD) (r : Ref sig .tc) (h : Free4 r) :
    R4 m c (Proc.devRef .tc r) = R3 m c (Proc.devRef .tc r) := StableHlo.binary_result_ne _ _ _ _ _ _ _ _ h

theorem at6 (c : Dev nD) (r : Ref sig .tc) (h : Free6 r) :
    R6 m c (Proc.devRef .tc r) = R3 m c (Proc.devRef .tc r) :=
  (StableHlo.after_of_writes_sub hostOps1_1 _ writes_hostOps1_1 h.2.2).trans
    ((StableHlo.after_of_writes_sub hostOps1 _ writes_hostOps1 h.2.1).trans (at4 m c r h.1))

theorem at7 (c : Dev nD) (r : Ref sig .tc) (h : Free7 r) :
    R7 m c (Proc.devRef .tc r) = R3 m c (Proc.devRef .tc r) :=
  (StableHlo.binary_result_ne _ _ _ _ _ _ _ _ h.2).trans (at6 m c r h.1)

theorem at9 (c : Dev nD) (r : Ref sig .tc) (h : Free9 r) :
    R9 m c (Proc.devRef .tc r) = R3 m c (Proc.devRef .tc r) :=
  (StableHlo.after_of_writes_sub hostOps2_1 _ writes_hostOps2_1 h.2.2).trans
    ((StableHlo.after_of_writes_sub hostOps2 _ writes_hostOps2 h.2.1).trans (at7 m c r h.1))

theorem at10 (c : Dev nD) (r : Ref sig .tc) (h : Free10 r) :
    R10 m c (Proc.devRef .tc r) = R3 m c (Proc.devRef .tc r) :=
  (StableHlo.binary_result_ne _ _ _ _ _ _ _ _ h.2).trans (at9 m c r h.1)

theorem at12 (c : Dev nD) (r : Ref sig .tc) (h : Free12 r) :
    R12 m c (Proc.devRef .tc r) = R3 m c (Proc.devRef .tc r) :=
  (StableHlo.after_of_writes_sub hostOps3_1 _ writes_hostOps3_1 h.2.2).trans
    ((StableHlo.after_of_writes_sub hostOps3 _ writes_hostOps3 h.2.1).trans (at10 m c r h.1))

theorem at13 (c : Dev nD) (r : Ref sig .tc) (h : Free13 r) :
    R13 m c (Proc.devRef .tc r) = R3 m c (Proc.devRef .tc r) :=
  (StableHlo.binary_result_ne _ _ _ _ _ _ _ _ h.2).trans (at12 m c r h.1)

/-- Written nowhere after the first stretches: neither by a product nor by a later stretch. -/
abbrev FreeAll (r : Ref sig .tc) : Prop := Free13 r ∧ r ∉ wr_hostOps4 ∧ r ∉ wr_hostOps4_1

/-- A buffer no operation writes is, at the return, as launched. -/
theorem atReturn (c : Dev nD) (r : Ref sig .tc) (h3 : Free3 r) (h : FreeAll r) :
    R15 m c (Proc.devRef .tc r) = m ((c : Thread nD τ).loc r) :=
  (StableHlo.after_of_writes_sub hostOps4_1 _ writes_hostOps4_1 h.2.2).trans
    ((StableHlo.after_of_writes_sub hostOps4 _ writes_hostOps4 h.2.1).trans
      ((at13 m c r h.1).trans (at3 m c r h3)))

end Cert.ReferenceIdeal.Carried

end
-- ==== Proof.RefStretches.lean ====
/-
  The reference's host stretches, read. From ANY contents W of the buffers at a stretch's entry, the stretch leaves
  the edge lists and weights (first stretch), a hidden layer's output (the stretches after products 1 to 3) or the
  pooled row and its log-softmax (the last stretch) as the convolution's functions of the buffers it reads.
-/
import proofs.«154524_j43173011259684_1_alg».proof.Proof.RefRun
import proofs.«154524_j43173011259684_1_alg».proof.Proof.Layers
import Idealize.ShloMosaic.Lib.StableHlo.Run

set_option maxRecDepth 16384

noncomputable section

namespace Cert.ReferenceIdeal.Stretches

open Cert.ReferenceIdeal Cert.ReferenceIdeal.HostRun Idealize.ShloMosaic Idealize.ShloMosaic.TcCoe Cert.Layers

variable {F : FTy → Type} [FloatOps F]
variable (W : Valuation τ sig (Elt F))

/-! ## The first stretch: the edges -/

theorem sources : StableHlo.after hostOps0_2 (StableHlo.after hostOps0_1 (StableHlo.after hostOps0 W)) (Proc.devRef .tc main_v3) = srcOf (F := F) (W (Proc.devRef .tc main_arg1)) := by
  dsimp only [hostOps0, hostOps0_1, hostOps0_2]
  after_results
  rfl

theorem targets : StableHlo.after hostOps0_2 (StableHlo.after hostOps0_1 (StableHlo.after hostOps0 W)) (Proc.devRef .tc main_v6) = dstOf (F := F) (W (Proc.devRef .tc main_arg1)) := by
  dsimp only [hostOps0, hostOps0_1, hostOps0_2]
  after_results
  rfl

set_option maxHeartbeats 4000000 in
theorem weights : StableHlo.after hostOps0_2 (StableHlo.after hostOps0_1 (StableHlo.after hostOps0 W)) (Proc.devRef .tc main_v31) = normOf (F := F) (W (Proc.devRef .tc main_arg1)) := by
  dsimp only [hostOps0, hostOps0_1, hostOps0_2]
  after_results
  rfl

/-! ## A hidden layer after its product -/

theorem hidden1 : StableHlo.after hostOps1_1 (StableHlo.after hostOps1 W) (Proc.devRef .tc main_v49)
    = hidden (F := F) (W (Proc.devRef .tc main_v32)) (W (Proc.devRef .tc main_v3)) (W (Proc.devRef .tc main_v6)) (W (Proc.devRef .tc main_v31)) (W (Proc.devRef .tc main_arg3)) := by
  dsimp only [hostOps1, hostOps1_1]
  after_results_simp
  rfl

theorem hidden2 : StableHlo.after hostOps2_1 (StableHlo.after hostOps2 W) (Proc.devRef .tc main_v67)
    = hidden (F := F) (W (Proc.devRef .tc main_v50)) (W (Proc.devRef .tc main_v3)) (W (Proc.devRef .tc main_v6)) (W (Proc.devRef .tc main_v31)) (W (Proc.devRef .tc main_arg5)) := by
  dsimp only [hostOps2, hostOps2_1]
  after_results_simp
  rfl

theorem hidden3 : StableHlo.after hostOps3_1 (StableHlo.after hostOps3 W) (Proc.devRef .tc main_v85)
    = hidden (F := F) (W (Proc.devRef .tc main_v68)) (W (Proc.devRef .tc main_v3)) (W (Proc.devRef .tc main_v6)) (W (Proc.devRef .tc main_v31)) (W (Proc.devRef .tc main_arg7)) := by
  dsimp only [hostOps3, hostOps3_1]
  after_results_simp
  rfl

/-! ## The last stretch: the pooled row and its log-softmax -/

theorem pooledRow : StableHlo.after hostOps4 W (Proc.devRef .tc main_v104)
    = pooled (F := F) (W (Proc.devRef .tc main_v86)) (W (Proc.devRef .tc main_v3)) (W (Proc.devRef .tc main_v6)) (W (Proc.devRef .tc main_v31)) (W (Proc.devRef .tc main_arg9)) := by
  dsimp only [hostOps4]
  after_results_simp
  rfl

theorem pooledKept : StableHlo.after hostOps4_1 W (Proc.devRef .tc main_v104) = W (Proc.devRef .tc main_v104) := by
  dsimp only [hostOps4_1]
  after_results_simp

theorem logSoftmaxRow : StableHlo.after hostOps4_1 W (Proc.devRef .tc main_v105) = logSoftmax (F := F) (W (Proc.devRef .tc main_v104)) := by
  dsimp only [hostOps4_1]
  after_results_simp
  rfl

end Cert.ReferenceIdeal.Stretches

end
-- ==== Proof.RefNetwork.lean ====
/-
  The reference's two results as the network's functions of the launch arguments. Boundary by boundary: the first
  stretch computes the edge lists and weights from the edge index; each matrix product is the dense product of the
  features with the layer's weights; the stretch after it aggregates along the edges, adds the bias and rectifies; the
  last stretch pools over the nodes and takes the log-softmax. Every buffer a step reads is either the previous step's
  output or was never written since the launch or since the first stretch.
-/
import proofs.«154524_j43173011259684_1_alg».proof.Proof.RefRun
import proofs.«154524_j43173011259684_1_alg».proof.Proof.RefCarried
import proofs.«154524_j43173011259684_1_alg».proof.Proof.RefStretches
import proofs.«154524_j43173011259684_1_alg».proof.Proof.Layers

set_option maxRecDepth 16384

noncomputable section

namespace Cert.ReferenceIdeal.Network

open Cert.ReferenceIdeal Cert.ReferenceIdeal.HostRun Idealize.ShloMosaic Idealize.ShloMosaic.TcCoe Idealize.SL.Sem
open Cert.Layers Cert.DenseSpec Cert.ReferenceIdeal.Carried Cert.ReferenceIdeal.Stretches

variable (m : (ℓ : Loc nD τ sig) → Buf (Elt Ideal) ℓ) (c : Dev nD)

/-! ## The edges, at the first product -/

theorem edgeSources : R3 m c (Proc.devRef .tc main_v3) = srcOf (F := Ideal) (m ((c : Thread nD τ).loc main_arg1)) :=
  sources (F := Ideal) (R0 m c)
theorem edgeTargets : R3 m c (Proc.devRef .tc main_v6) = dstOf (F := Ideal) (m ((c : Thread nD τ).loc main_arg1)) :=
  targets (F := Ideal) (R0 m c)
theorem edgeWeights : R3 m c (Proc.devRef .tc main_v31) = normOf (F := Ideal) (m ((c : Thread nD τ).loc main_arg1)) :=
  weights (F := Ideal) (R0 m c)

/-! ## Layer 1 -/

/-- Product 1 is the dense product of what it reads; it reads the arguments as launched. -/
theorem product1 : R4 m c (Proc.devRef .tc main_v32) = dense256 (m ((c : Thread nD τ).loc main_arg0)) (m ((c : Thread nD τ).loc main_arg2)) := by
  show (dot1 (F := Ideal)).result (R3 m c) (Proc.devRef .tc main_v32) = _
  rw [StableHlo.binary_result, hostProduct256]
  rw [at3 m c main_arg0 (by decide), at3 m c main_arg2 (by decide)]

/-- Layer 1's output: the stretch after the product reads the product, the edge lists and weights as first
    computed, and the bias as launched. -/
theorem layer1 : R6 m c (Proc.devRef .tc main_v49) = features1 (m ((c : Thread nD τ).loc main_arg0)) (m ((c : Thread nD τ).loc main_arg1)) (m ((c : Thread nD τ).loc main_arg2)) (m ((c : Thread nD τ).loc main_arg3)) := by
  have h := hidden1 (F := Ideal) (R4 m c)
  rw [product1 m c, at4 m c main_v3 (by decide), edgeSources m c, at4 m c main_v6 (by decide), edgeTargets m c,
    at4 m c main_v31 (by decide), edgeWeights m c, at4 m c main_arg3 (by decide), at3 m c main_arg3 (by decide)] at h
  exact h

/-! ## Layer 2 -/

/-- Product 2 is the dense product of what it reads; it reads the previous layer's output and the weights as launched. -/
theorem product2 : R7 m c (Proc.devRef .tc main_v50) = dense256 (features1 (m ((c : Thread nD τ).loc main_arg0)) (m ((c : Thread nD τ).loc main_arg1)) (m ((c : Thread nD τ).loc main_arg2)) (m ((c : Thread nD τ).loc main_arg3))) (m ((c : Thread nD τ).loc main_arg4)) := by
  show (dot2 (F := Ideal)).result (R6 m c) (Proc.devRef .tc main_v50) = _
  rw [StableHlo.binary_result, hostProduct256]
  rw [layer1 m c, at6 m c main_arg4 (by decide), at3 m c main_arg4 (by decide)]

/-- Layer 2's output: the stretch after the product reads the product, the edge lists and weights as first
    computed, and the bias as launched. -/
theorem layer2 : R9 m c (Proc.devRef .tc main_v67) = features2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := hidden2 (F := Ideal) (R7 m c)
  rw [product2 m c, at7 m c main_v3 (by decide), edgeSources m c, at7 m c main_v6 (by decide), edgeTargets m c,
    at7 m c main_v31 (by decide), edgeWeights m c, at7 m c main_arg5 (by decide), at3 m c main_arg5 (by decide)] at h
  exact h

/-! ## Layer 3 -/

/-- Product 3 is the dense product of what it reads; it reads the previous layer's output and the weights as launched. -/
theorem product3 : R10 m c (Proc.devRef .tc main_v68) = dense256 (features2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  show (dot3 (F := Ideal)).result (R9 m c) (Proc.devRef .tc main_v68) = _
  rw [StableHlo.binary_result, hostProduct256]
  rw [layer2 m c, at9 m c main_arg6 (by decide), at3 m c main_arg6 (by decide)]

/-- Layer 3's output: the stretch after the product reads the product, the edge lists and weights as first
    computed, and the bias as launched. -/
theorem layer3 : R12 m c (Proc.devRef .tc main_v85) = features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := hidden3 (F := Ideal) (R10 m c)
  rw [product3 m c, at10 m c main_v3 (by decide), edgeSources m c, at10 m c main_v6 (by decide), edgeTargets m c,
    at10 m c main_v31 (by decide), edgeWeights m c, at10 m c main_arg7 (by decide), at3 m c main_arg7 (by decide)] at h
  exact h

/-! ## Layer 4, the pooling and the log-softmax -/

/-- Product 4 is the dense product of what it reads; it reads the previous layer's output and the weights as launched. -/
theorem product4 : R13 m c (Proc.devRef .tc main_v86) = dense128 (features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  show (dot4 (F := Ideal)).result (R12 m c) (Proc.devRef .tc main_v86) = _
  rw [StableHlo.binary_result, hostProduct128]
  rw [layer3 m c, at12 m c main_arg8 (by decide), at3 m c main_arg8 (by decide)]

/-- The pooled row, before the log-softmax's operations run. -/
theorem pooledBefore : R14 m c (Proc.devRef .tc main_v104) = pooledOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := pooledRow (F := Ideal) (R13 m c)
  rw [product4 m c, at13 m c main_v3 (by decide), edgeSources m c, at13 m c main_v6 (by decide), edgeTargets m c,
    at13 m c main_v31 (by decide), edgeWeights m c, at13 m c main_arg9 (by decide), at3 m c main_arg9 (by decide)] at h
  exact h

/-- The first result. -/
theorem result0 : R15 m c (Proc.devRef .tc main_v104) = pooledOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (pooledKept (F := Ideal) (R14 m c)).trans (pooledBefore m c)

/-- The second result. -/
theorem result1 : R15 m c (Proc.devRef .tc main_v105) = logProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (logSoftmaxRow (F := Ideal) (R14 m c)).trans (congrArg (logSoftmax (F := Ideal)) (pooledBefore m c))

end Cert.ReferenceIdeal.Network

end
-- ==== Proof.lean ====
/-
  Two programs for a four-layer graph convolution with sum pooling and a log-softmax, and the claim that they agree
  over the extended reals. The reference is a straight line of host operations. The kernel program runs the same host
  operations, except that each layer's dense product H · W is a pallas_call: ten grid points, each multiplying a block
  of 5000 rows of H by the whole of W after narrowing both to bfloat16.

  Over the extended reals the narrowing is the identity, a block product into a zero accumulator is the plain sum over
  the contracted index, and row r of H · W depends on row r of H only; the ten row blocks tile the 50000 rows. So each
  call leaves exactly the array the reference's dot_general computes, and since every other operation is the same in
  both programs, both results are ONE function of the arguments: `Cert.Layers.pooledOut` and `Cert.Layers.logProbs`.
  No law of arithmetic beyond the commutative-monoid sum is used, so the finiteness of the inputs is never needed.

  The pieces: DenseSpec (H · W index by index), BlockProduct (a kernel body's payload at an entry), RegionProduct (a
  call's output array), Layers (the convolution's functions; the host's dot_general is the dense product), Carried /
  RefCarried (buffers no later step writes), KernelStretches / RefStretches (each host stretch computes a layer
  function of what it reads), FinalState / RefRun (the runs, with the final memory named), KernelNetwork / RefNetwork
  (each program's results are the network's functions of the launch arguments).
-/
import proofs.«154524_j43173011259684_1_alg».proof.Defs
import proofs.«154524_j43173011259684_1_alg».proof.Proof.Gen.Kernel
import proofs.«154524_j43173011259684_1_alg».proof.Proof.Gen.Kernel.Skeleton
import proofs.«154524_j43173011259684_1_alg».proof.Proof.Gen.Kernel.Launch
import proofs.«154524_j43173011259684_1_alg».proof.Proof.Gen.Kernel.Points
import proofs.«154524_j43173011259684_1_alg».proof.Proof.Gen.Kernel.Frame
import proofs.«154524_j43173011259684_1_alg».proof.Proof.Gen.KernelIdeal
import proofs.«154524_j43173011259684_1_alg».proof.Proof.Gen.KernelIdeal.Skeleton
import proofs.«154524_j43173011259684_1_alg».proof.Proof.Gen.KernelIdeal.Launch
import proofs.«154524_j43173011259684_1_alg».proof.Proof.Gen.KernelIdeal.Points
import proofs.«154524_j43173011259684_1_alg».proof.Proof.Gen.KernelIdeal.Frame
import proofs.«154524_j43173011259684_1_alg».proof.Proof.Gen.ReferenceIdeal
import proofs.«154524_j43173011259684_1_alg».proof.Proof.Gen.Pre_finite_inputs
import proofs.«154524_j43173011259684_1_alg».proof.Proof.FinalState
import proofs.«154524_j43173011259684_1_alg».proof.Proof.KernelNetwork
import proofs.«154524_j43173011259684_1_alg».proof.Proof.RefNetwork
import Idealize.ShloMosaic.Adequacy
import Idealize.ShloMosaic.Init

set_option maxRecDepth 16384

noncomputable section

namespace Cert.Proof

open Idealize.ShloMosaic Idealize.ShloMosaic.TcCoe Idealize.SL.Sem Cert.Layers

/-! ## The three programs run, and leave their arguments alone -/

theorem frame_kernel : Cert.frame_Kernel := fun m ρ _ => Cert.Kernel.Gen.frame m ρ

theorem frame_kernelIdeal : Cert.frame_KernelIdeal := fun m ρ _ => Cert.KernelIdeal.Gen.frame m ρ

/-- The reference writes none of its arguments: each ends as launched. -/
theorem reference_kept (m : (ℓ : Loc Cert.ReferenceIdeal.nD Cert.ReferenceIdeal.τ Cert.ReferenceIdeal.sig) → Buf (Elt Ideal) ℓ)
    (c : Dev Cert.ReferenceIdeal.nD) (r : Ref Cert.ReferenceIdeal.sig .tc)
    (h3 : Cert.ReferenceIdeal.Carried.Free3 r) (h : Cert.ReferenceIdeal.Carried.FreeAll r)
    (s : (ℓ : Loc Cert.ReferenceIdeal.nD Cert.ReferenceIdeal.τ Cert.ReferenceIdeal.sig) → Buf (Elt Ideal) ℓ)
    (hs : s ((c.tc : Thread Cert.ReferenceIdeal.nD Cert.ReferenceIdeal.τ).loc r) = Cert.ReferenceIdeal.HostRun.R15 m c (Proc.devRef .tc r)) :
    s ((c.tc : Thread Cert.ReferenceIdeal.nD Cert.ReferenceIdeal.τ).loc r) = m ((c.tc : Thread Cert.ReferenceIdeal.nD Cert.ReferenceIdeal.τ).loc r) :=
  hs.trans (Cert.ReferenceIdeal.Carried.atReturn m c r h3 h)

theorem frame_reference : Cert.frame_ReferenceIdeal := fun m ρ _ =>
  (θ_run Cert.ReferenceIdeal.defs _ _).mono (fun r h c =>
    ⟨reference_kept m c Cert.ReferenceIdeal.main_arg0 (by decide) (by decide) r.2.mem (h c _),
     reference_kept m c Cert.ReferenceIdeal.main_arg1 (by decide) (by decide) r.2.mem (h c _),
     reference_kept m c Cert.ReferenceIdeal.main_arg2 (by decide) (by decide) r.2.mem (h c _),
     reference_kept m c Cert.ReferenceIdeal.main_arg3 (by decide) (by decide) r.2.mem (h c _),
     reference_kept m c Cert.ReferenceIdeal.main_arg4 (by decide) (by decide) r.2.mem (h c _),
     reference_kept m c Cert.ReferenceIdeal.main_arg5 (by decide) (by decide) r.2.mem (h c _),
     reference_kept m c Cert.ReferenceIdeal.main_arg6 (by decide) (by decide) r.2.mem (h c _),
     reference_kept m c Cert.ReferenceIdeal.main_arg7 (by decide) (by decide) r.2.mem (h c _),
     reference_kept m c Cert.ReferenceIdeal.main_arg8 (by decide) (by decide) r.2.mem (h c _),
     reference_kept m c Cert.ReferenceIdeal.main_arg9 (by decide) (by decide) r.2.mem (h c _)⟩)
    (Cert.ReferenceIdeal.HostRun.run_final (F := Ideal) m ρ)

/-! ## The idealization rewrote nothing -/

theorem preserves : Cert.preserves_Kernel_KernelIdeal := trivial

/-! ## Both idealized programs compute the network's two functions of the arguments -/

/-- The kernel program ends with the pooled row and its log-softmax, as functions of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v104) = pooledOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v105) = logProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c =>
    ⟨(h c _ (Cert.KernelIdeal.Gen.mem_uc Cert.KernelIdeal.main_v104 (by decide))).trans (Cert.KernelIdeal.Network.result0 m ρ c),
     (h c _ (Cert.KernelIdeal.Gen.mem_uc Cert.KernelIdeal.main_v105 (by decide))).trans (Cert.KernelIdeal.Network.result1 m ρ c),
     (h c _ (Cert.KernelIdeal.Gen.mem_uc Cert.KernelIdeal.main_arg0 (by decide))).trans (Cert.KernelIdeal.Gen.W15_main_arg0 m ρ c),
     (h c _ (Cert.KernelIdeal.Gen.mem_uc Cert.KernelIdeal.main_arg1 (by decide))).trans (Cert.KernelIdeal.Gen.W15_main_arg1 m ρ c),
     (h c _ (Cert.KernelIdeal.Gen.mem_uc Cert.KernelIdeal.main_arg2 (by decide))).trans (Cert.KernelIdeal.Gen.W15_main_arg2 m ρ c),
     (h c _ (Cert.KernelIdeal.Gen.mem_uc Cert.KernelIdeal.main_arg3 (by decide))).trans (Cert.KernelIdeal.Gen.W15_main_arg3 m ρ c),
     (h c _ (Cert.KernelIdeal.Gen.mem_uc Cert.KernelIdeal.main_arg4 (by decide))).trans (Cert.KernelIdeal.Gen.W15_main_arg4 m ρ c),
     (h c _ (Cert.KernelIdeal.Gen.mem_uc Cert.KernelIdeal.main_arg5 (by decide))).trans (Cert.KernelIdeal.Gen.W15_main_arg5 m ρ c),
     (h c _ (Cert.KernelIdeal.Gen.mem_uc Cert.KernelIdeal.main_arg6 (by decide))).trans (Cert.KernelIdeal.Gen.W15_main_arg6 m ρ c),
     (h c _ (Cert.KernelIdeal.Gen.mem_uc Cert.KernelIdeal.main_arg7 (by decide))).trans (Cert.KernelIdeal.Gen.W15_main_arg7 m ρ c),
     (h c _ (Cert.KernelIdeal.Gen.mem_uc Cert.KernelIdeal.main_arg8 (by decide))).trans (Cert.KernelIdeal.Gen.W15_main_arg8 m ρ c),
     (h c _ (Cert.KernelIdeal.Gen.mem_uc Cert.KernelIdeal.main_arg9 (by decide))).trans (Cert.KernelIdeal.Gen.W15_main_arg9 m ρ c)⟩)
    (Cert.KernelIdeal.FinalState.run_final (F := Ideal) m ρ)

/-- From memories that agree on the arguments the two programs end with equal results: both are the network's
    functions, of equal arguments. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ?_) (Cert.ReferenceIdeal.HostRun.run_final (F := Ideal) m' ρ')
  obtain ⟨a0, a1, a2, a3, a4, a5, a6, a7, a8, a9⟩ := hagree c
  refine ⟨(h c _).trans ((Cert.ReferenceIdeal.Network.result0 m' c).trans ?_),
    (h c _).trans ((Cert.ReferenceIdeal.Network.result1 m' c).trans ?_),
    reference_kept m' c Cert.ReferenceIdeal.main_arg0 (by decide) (by decide) r.2.mem (h c _),
    reference_kept m' c Cert.ReferenceIdeal.main_arg1 (by decide) (by decide) r.2.mem (h c _),
    reference_kept m' c Cert.ReferenceIdeal.main_arg2 (by decide) (by decide) r.2.mem (h c _),
    reference_kept m' c Cert.ReferenceIdeal.main_arg3 (by decide) (by decide) r.2.mem (h c _),
    reference_kept m' c Cert.ReferenceIdeal.main_arg4 (by decide) (by decide) r.2.mem (h c _),
    reference_kept m' c Cert.ReferenceIdeal.main_arg5 (by decide) (by decide) r.2.mem (h c _),
    reference_kept m' c Cert.ReferenceIdeal.main_arg6 (by decide) (by decide) r.2.mem (h c _),
    reference_kept m' c Cert.ReferenceIdeal.main_arg7 (by decide) (by decide) r.2.mem (h c _),
    reference_kept m' c Cert.ReferenceIdeal.main_arg8 (by decide) (by decide) r.2.mem (h c _),
    reference_kept m' c Cert.ReferenceIdeal.main_arg9 (by decide) (by decide) r.2.mem (h c _)⟩
  · rw [a0, a1, a2, a3, a4, a5, a6, a7, a8, a9]
  · rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
